-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S1024x1024 : Shape := ⟨2, ![1024, 1024]⟩
abbrev S16x1024 : Shape := ⟨2, ![16, 1024]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  main_v18

def fn {F : FTy → Type} [FloatOps F] (main_arg0 : FVec F S1024x16384 .f32) (main_arg1 : FVec F S1024x1024 .f32) (main_arg2 : FVec F S1024x1024 .f32) (main_arg3 : FVec F S16x1024 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_v13 main_v16
-- ==== Kernel.lean ====
abbrev S1024x16384 : Shape := ⟨2, ![1024, 16384]⟩
abbrev S1024x1024 : Shape := ⟨2, ![1024, 1024]⟩
abbrev S16x1024 : Shape := ⟨2, ![16, 1024]⟩
abbrev S16x4 : Shape := ⟨2, ![16, 4]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x4 : Shape := ⟨2, ![1024, 4]⟩
abbrev S1024x2048 : Shape := ⟨2, ![1024, 2048]⟩
abbrev S256x4 : Shape := ⟨2, ![256, 4]⟩
abbrev S256x2048 : Shape := ⟨2, ![256, 2048]⟩
abbrev S256x1024 : Shape := ⟨2, ![256, 1024]⟩
abbrev S256x1 : Shape := ⟨2, ![256, 1]⟩

abbrev nBuf : Space → Nat
  | .hbm => 51
  | .vmem => 9
  | .smem => 0
  | _ => 0

abbrev bufTy : (tb : Table) → Fin (tcTables nBuf tb) → BufTy
  | .hbm, ⟨0, _⟩ => ⟨S1024x16384, .f32⟩
  | .hbm, ⟨1, _⟩ => ⟨S1024x1024, .f32⟩
  | .hbm, ⟨2, _⟩ => ⟨S1024x1024, .f32⟩
  | .hbm, ⟨3, _⟩ => ⟨S16x1024, .f32⟩
  | .hbm, ⟨4, _⟩ => ⟨S16x4, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024x1, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024, .f32⟩
  | .hbm, ⟨31, _⟩ => ⟨S1024x1, .f32⟩
  | .hbm, ⟨32, _⟩ => ⟨S1024x1024, .f32⟩
  | .hbm, ⟨33, _⟩ => ⟨S1024x1024, .f32⟩
  | .hbm, ⟨34, _⟩ => ⟨S1024x1024, .bf16⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S16x1024, .f32⟩
  | .hbm, ⟨42, _⟩ => ⟨S16x1024, .f32⟩
  | .hbm, ⟨43, _⟩ => ⟨S16x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S16x1024, .f32⟩
  | .hbm, ⟨48, _⟩ => ⟨S16x1024, .f32⟩
  | .hbm, ⟨49, _⟩ => ⟨S1024x4, .f32⟩
  | .hbm, ⟨50, _⟩ => ⟨S1024x16384, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .bf16⟩
  | .local _ .vmem, ⟨3, _⟩ => ⟨S1024x1024, .bf16⟩
  | .local _ .vmem, ⟨4, _⟩ => ⟨S256x4, .f32⟩
  | .local _ .vmem, ⟨5, _⟩ => ⟨S256x4, .f32⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S1024x1024_S1024_d1 : S1024x1024.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bitsLt_bf16_f32 : FTy.bits .bf16 < FTy.bits .f32
  reducesTo_S16x1024_S1024_d0 : S16x1024.ReducesTo [0] S1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  h_S256x1024 : 0 < S256x1024.numel
  shapeCasts_S256x1024_S256x1024 : S256x1024.ShapeCasts S256x1024
  inb_S256x4_S256x1_0_0 : ∀ a, (![0, 0] : Fin 2 → Nat) a + S256x1.size a ≤ S256x4.size a
  h_S256x1 : 0 < S256x1.numel
  shapeCasts_S256x1_S256x1 : S256x1.ShapeCasts S256x1
  inb_S256x4_S256x1_0_1 : ∀ a, (![0, 1] : Fin 2 → Nat) a + S256x1.size a ≤ S256x4.size a
  inb_S256x4_S256x1_0_2 : ∀ a, (![0, 2] : Fin 2 → Nat) a + S256x1.size a ≤ S256x4.size a
  inb_S256x4_S256x1_0_3 : ∀ a, (![0, 3] : Fin 2 → Nat) a + S256x1.size a ≤ S256x4.size a
  broadcasts_S256x1_S256x2048 : S256x1.Broadcasts S256x2048
  inb_S256x2048_S256x2048_0_0 : ∀ a, (![0, 0] : Fin 2 → Nat) a + S256x2048.size a ≤ S256x2048.size a
  h_S256x2048 : 0 < S256x2048.numel
  dot_S16x1024_S16x4_S1024x4_0_0_1_1_n_n_wf : DotDims.WF S16x1024 S16x4 S1024x4 [0] [0] [1] [1] [] []
  dot_S256x1024_S1024x2048_S256x2048_1_0_0_1_n_n_wf : DotDims.WF S256x1024 S1024x2048 S256x2048 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x1024.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x16384.size a
  hwx0_0 : ∀ i : grid0.Coords, EltTy.bits .f32 = 32 ∨ (Rect.block (s := S1024x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4.size a ≤ S1024x4.size a
  hwx0_3 : ∀ i : grid0.Coords, EltTy.bits .f32 = 32 ∨ (Rect.block (s := S1024x4) S256x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S1024x16384.size a
  hwx0_4 : ∀ i : grid0.Coords, EltTy.bits .f32 = 32 ∨ (Rect.block (s := S1024x16384) S256x2048.size (cc0_transform_4 i) (hinb0_4 i)).WholeWords (EltTy.packing .f32)

variable [Facts₀]

def dot_S16x1024_S16x4_S1024x4_0_0_1_1_n_n : DotDims S16x1024 S16x4 S1024x4 where
  lhsContracting := [0]
  rhsContracting := [0]
  lhsNonContracting := [1]
  rhsNonContracting := [1]
  lhsBatch := []
  rhsBatch := []
  wf := dot_S16x1024_S16x4_S1024x4_0_0_1_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S256x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S1024x1024 : Shape := ⟨2, ![1024, 1024]⟩
abbrev S16x1024 : Shape := ⟨2, ![16, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1x1024x16384 : Shape := ⟨3, ![1, 1024, 16384]⟩
abbrev S16x1024x16384 : Shape := ⟨3, ![16, 1024, 16384]⟩
abbrev S16x1024x1 : Shape := ⟨3, ![16, 1024, 1]⟩

abbrev nBuf : Space → Nat
  | .hbm => 107
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x1024, .f32⟩
  | .hbm, ⟨2, _⟩ => ⟨S1024x1024, .f32⟩
  | .hbm, ⟨3, _⟩ => ⟨S16x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1024x1, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024x1, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024, .f32⟩
  | .hbm, ⟨29, _⟩ => ⟨S1024x1, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S16x1024, .f32⟩
  | .hbm, ⟨39, _⟩ => ⟨S16x1024, .f32⟩
  | .hbm, ⟨40, _⟩ => ⟨S16x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16x1024, .f32⟩
  | .hbm, ⟨45, _⟩ => ⟨S16x1024, .f32⟩
  | .hbm, ⟨46, _⟩ => ⟨S1024x16384, .f32⟩
  | .hbm, ⟨47, _⟩ => ⟨S1024x16384, .f32⟩
  | .hbm, ⟨48, _⟩ => ⟨S1024x16384, .f32⟩
  | .hbm, ⟨49, _⟩ => ⟨S1024x16384, .f32⟩
  | .hbm, ⟨50, _⟩ => ⟨S1024x16384, .f32⟩
  | .hbm, ⟨51, _⟩ => ⟨S1024x16384, .f32⟩
  | .hbm, ⟨52, _⟩ => ⟨S_, .f32⟩
  | .hbm, ⟨53, _⟩ => ⟨S1024x16384, .f32⟩
  | .hbm, ⟨54, _⟩ => ⟨S1024x16384, .f32⟩
  | .hbm, ⟨55, _⟩ => ⟨S1024x16384, .f32⟩
  | .hbm, ⟨56, _⟩ => ⟨S_, .f32⟩
  | .hbm, ⟨57, _⟩ => ⟨S1024x16384, .f32⟩
  | .hbm, ⟨58, _⟩ => ⟨S1024x16384, .f32⟩
  | .hbm, ⟨59, _⟩ => ⟨S1024x16384, .f32⟩
  | .hbm, ⟨60, _⟩ => ⟨S_, .f32⟩
  | .hbm, ⟨61, _⟩ => ⟨S1024x16384, .f32⟩
  | .hbm, ⟨62, _⟩ => ⟨S1024x16384, .f32⟩
  | .hbm, ⟨63, _⟩ => ⟨S_, .f32⟩
  | .hbm, ⟨64, _⟩ => ⟨S1024x16384, .f32⟩
  | .hbm, ⟨65, _⟩ => ⟨S1024x16384, .f32⟩
  | .hbm, ⟨66, _⟩ => ⟨S_, .f32⟩
  | .hbm, ⟨67, _⟩ => ⟨S1024x16384, .f32⟩
  | .hbm, ⟨68, _⟩ => ⟨S1024x16384, .f32⟩
  | .hbm, ⟨69, _⟩ => ⟨S_, .f32⟩
  | .hbm, ⟨70, _⟩ => ⟨S1024x16384, .f32⟩
  | .hbm, ⟨71, _⟩ => ⟨S1024x16384, .f32⟩
  | .hbm, ⟨72, _⟩ => ⟨S1024x16384, .f32⟩
  | .hbm, ⟨73, _⟩ => ⟨S_, .f32⟩
  | .hbm, ⟨74, _⟩ => ⟨S1024x16384, .f32⟩
  | .hbm, ⟨75, _⟩ => ⟨S1024x16384, .f32⟩
  | .hbm, ⟨76, _⟩ => ⟨S_, .f32⟩
  | .hbm, ⟨77, _⟩ => ⟨S1024x16384, .f32⟩
  | .hbm, ⟨78, _⟩ => ⟨S1024x16384, .f32⟩
  | .hbm, ⟨79, _⟩ => ⟨S1024x16384, .f32⟩
  | .hbm, ⟨80, _⟩ => ⟨S_, .f32⟩
  | .hbm, ⟨81, _⟩ => ⟨S1024x16384, .f32⟩
  | .hbm, ⟨82, _⟩ => ⟨S1024x16384, .f32⟩
  | .hbm, ⟨83, _⟩ => ⟨S_, .f32⟩
  | .hbm, ⟨84, _⟩ => ⟨S1024x16384, .f32⟩
  | .hbm, ⟨85, _⟩ => ⟨S1x1024x16384, .f32⟩
  | .hbm, ⟨86, _⟩ => ⟨S1x1024x16384, .f32⟩
  | .hbm, ⟨87, _⟩ => ⟨S1x1024x16384, .f32⟩
  | .hbm, ⟨88, _⟩ => ⟨S1x1024x16384, .f32⟩
  | .hbm, ⟨89, _⟩ => ⟨S1x1024x16384, .f32⟩
  | .hbm, ⟨90, _⟩ => ⟨S1x1024x16384, .f32⟩
  | .hbm, ⟨91, _⟩ => ⟨S1x1024x16384, .f32⟩
  | .hbm, ⟨92, _⟩ => ⟨S1x1024x16384, .f32⟩
  | .hbm, ⟨93, _⟩ => ⟨S1x1024x16384, .f32⟩
  | .hbm, ⟨94, _⟩ => ⟨S1x1024x16384, .f32⟩
  | .hbm, ⟨95, _⟩ => ⟨S1x1024x16384, .f32⟩
  | .hbm, ⟨96, _⟩ => ⟨S1x1024x16384, .f32⟩
  | .hbm, ⟨97, _⟩ => ⟨S1x1024x16384, .f32⟩
  | .hbm, ⟨98, _⟩ => ⟨S1x1024x16384, .f32⟩
  | .hbm, ⟨99, _⟩ => ⟨S1x1024x16384, .f32⟩
  | .hbm, ⟨100, _⟩ => ⟨S1x1024x16384, .f32⟩
  | .hbm, ⟨101, _⟩ => ⟨S16x1024x16384, .f32⟩
  | .hbm, ⟨102, _⟩ => ⟨S16x1024x1, .f32⟩
  | .hbm, ⟨103, _⟩ => ⟨S16x1024x16384, .f32⟩
  | .hbm, ⟨104, _⟩ => ⟨S16x1024x16384, .f32⟩
  | .hbm, ⟨105, _⟩ => ⟨S_, .f32⟩
  | .hbm, ⟨106, _⟩ => ⟨S1024x16384, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_cst_17 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S16x1024_S1024_d0 : S16x1024.ReducesTo [0] S1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  bcast_S_S1024x16384 : S_.BroadcastsInDim S1024x16384 (![] : Fin 0 → Fin S1024x16384.rank)
  bcast_S1024x16384_S1x1024x16384_1_2 : S1024x16384.BroadcastsInDim S1x1024x16384 (![1, 2] : Fin 2 → Fin S1x1024x16384.rank)
  concatenates_S1x1024x16384_S1x1024x16384_S1x1024x16384_S1x1024x16384_S1x1024x16384_S1x1024x16384_S1x1024x16384_S1x1024x16384_S1x1024x16384_S1x1024x16384_S1x1024x16384_S1x1024x16384_S1x1024x16384_S1x1024x16384_S1x1024x16384_S1x1024x16384_S16x1024x16384_d0 : Shape.Concatenates [S1x1024x16384, S1x1024x16384, S1x1024x16384, S1x1024x16384, S1x1024x16384, S1x1024x16384, S1x1024x16384, S1x1024x16384, S1x1024x16384, S1x1024x16384, S1x1024x16384, S1x1024x16384, S1x1024x16384, S1x1024x16384, S1x1024x16384, S1x1024x16384] S16x1024x16384 0
  bcast_S16x1024_S16x1024x1_0_1 : S16x1024.BroadcastsInDim S16x1024x1 (![0, 1] : Fin 2 → Fin S16x1024x1.rank)
  bcast_S16x1024x1_S16x1024x16384_0_1_2 : S16x1024x1.BroadcastsInDim S16x1024x16384 (![0, 1, 2] : Fin 3 → Fin S16x1024x16384.rank)
  reducesTo_S16x1024x16384_S1024x16384_d0 : S16x1024x16384.ReducesTo [0] S1024x16384
  dot_S1024x1024_S1024x16384_S1024x16384_1_0_0_1_n_n_wf : DotDims.WF S1024x1024 S1024x16384 S1024x16384 [1] [0] [0] [1] [] []

variable [Facts₀]

def dot_S1024x1024_S1024x16384_S1024x16384_1_0_0_1_n_n : DotDims S1024x1024 S1024x16384 S1024x16384 where
  lhsContracting := [1]
  rhsContracting := [0]
  lhsNonContracting := [0]
  rhsNonContracting := [1]
  lhsBatch := []
  rhsBatch := []
  wf := dot_S1024x1024_S1024x16384_S1024x16384_1_0_0_1_n_n_wf

class Facts : Prop extends Facts₀ where

variable [Facts]
-- ==== Proof.KernelPieces.lean ====
/-
  What one grid point of the kernel leaves behind, as values.

  The body keeps a copy of the current column tile of X (1024 rows, 2048 columns) in a scratch buffer: at the first
  row tile of each column tile it stores the tile there, narrowed to bf16; at the other three row tiles it stores
  nothing and reads what the first one left. Every point then stores one output block of 256 rows and 2048 columns:
  with A and B the products of 256 rows of the two weight arrays with the scratch, and c0..c3 the four columns of the
  point's coefficient block, the block is c0 + A * (c1 + c3 * B) + c2 * B (blockOut below, the body's arithmetic
  applied to what its loads read).
-/
import proofs.«125773_j41910290874770_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The output block of the point with coordinates i, from the two weight arrays (of which the body reads the 256
    rows starting at 256 * i 1), the scratch contents and the point's coefficient block (of which it reads the four
    columns one by one). -/
def blockOut (i : grid0.Coords) (x1 x2 : Vec F S1024x1024 .bf16) (xs : Vec F S1024x2048 .bf16)
    (x3 : Vec F S256x4 .f32) : Vec F S256x2048 .f32 :=
  k0_pay2 (View.ld x1 (Rect.unit (s := S1024x1024) (k0_off1 i) S256x1024.size (k0_off1_inb i)))
    (View.ld x2 (Rect.unit (s := S1024x1024) (k0_off1 i) S256x1024.size (k0_off1_inb i)))
    xs
    (View.ld x3 (Rect.unit (s := S256x4) ![0, 0] S256x1.size inb_S256x4_S256x1_0_0))
    (View.ld x3 (Rect.unit (s := S256x4) ![0, 1] S256x1.size inb_S256x4_S256x1_0_1))
    (View.ld x3 (Rect.unit (s := S256x4) ![0, 2] S256x1.size inb_S256x4_S256x1_0_2))
    (View.ld x3 (Rect.unit (s := S256x4) ![0, 3] S256x1.size inb_S256x4_S256x1_0_3))

/-- At a first row tile the scratch ends holding the column tile of X, narrowed. -/
theorem scratch_first (c : Dev nD) (i : grid0.Coords) (a2 : Memref sig .tc .vmem S1024x2048 .f32) (h2 : a2.IsWhole) (a3 : Memref sig .tc .vmem S1024x1024 .bf16) (h3 : a3.IsWhole) (a4 : Memref sig .tc .vmem S1024x1024 .bf16) (h4 : a4.IsWhole) (a5 : Memref sig .tc .vmem S256x4 .f32) (h5 : a5.IsWhole) (a6 : Memref sig .tc .vmem S256x2048 .f32) (h6 : a6.IsWhole) (a7 : Memref sig .tc .vmem S1024x2048 .bf16) (h7 : a7.IsWhole) (hc : cond0_0 i)
    (x0 : Vec F S1024x2048 .f32) (x1 : Vec F S1024x1024 .bf16) (x2 : Vec F S1024x1024 .bf16) (x3 : Vec F S256x4 .f32) :
    sout0_A_0 c i a2 h2 a3 h3 a4 h4 a5 h5 a6 h6 a7 h7 hc x0 x1 x2 x3 = k0_pay1 x0 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz]
  simp only [View.readAt_eq_ld, h2.read_unread, View.ld_unit_zero (S := S1024x2048) hz]

/-- At a first row tile the output block is computed from the tile just stored. -/
theorem out_first (c : Dev nD) (i : grid0.Coords) (a2 : Memref sig .tc .vmem S1024x2048 .f32) (h2 : a2.IsWhole) (a3 : Memref sig .tc .vmem S1024x1024 .bf16) (h3 : a3.IsWhole) (a4 : Memref sig .tc .vmem S1024x1024 .bf16) (h4 : a4.IsWhole) (a5 : Memref sig .tc .vmem S256x4 .f32) (h5 : a5.IsWhole) (a6 : Memref sig .tc .vmem S256x2048 .f32) (h6 : a6.IsWhole) (a7 : Memref sig .tc .vmem S1024x2048 .bf16) (h7 : a7.IsWhole) (hc : cond0_0 i)
    (x0 : Vec F S1024x2048 .f32) (x1 : Vec F S1024x1024 .bf16) (x2 : Vec F S1024x1024 .bf16) (x3 : Vec F S256x4 .f32) :
    out0_A_4 c i a2 h2 a3 h3 a4 h4 a5 h5 a6 h6 a7 h7 hc x0 x1 x2 x3 = blockOut i x1 x2 (k0_pay1 x0) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz, View.readCov_unit_zero (S := S1024x2048) _ hz]
  unfold blockOut
  simp only [View.readAt_eq_ld, h2.read_unread, h3.read_unread, h4.read_unread, h5.read_unread,
    View.ld_unit_zero (S := S1024x2048) hz]
  rfl

/-- At the other row tiles the output block is computed from what the scratch held. -/
theorem out_later (c : Dev nD) (i : grid0.Coords) (a2 : Memref sig .tc .vmem S1024x2048 .f32) (h2 : a2.IsWhole) (a3 : Memref sig .tc .vmem S1024x1024 .bf16) (h3 : a3.IsWhole) (a4 : Memref sig .tc .vmem S1024x1024 .bf16) (h4 : a4.IsWhole) (a5 : Memref sig .tc .vmem S256x4 .f32) (h5 : a5.IsWhole) (a6 : Memref sig .tc .vmem S256x2048 .f32) (h6 : a6.IsWhole) (a7 : Memref sig .tc .vmem S1024x2048 .bf16) (h7 : a7.IsWhole) (hc : ¬cond0_0 i)
    (x0 : Vec F S1024x2048 .f32) (x1 : Vec F S1024x1024 .bf16) (x2 : Vec F S1024x1024 .bf16) (x3 : Vec F S256x4 .f32) (xs : Vec F S1024x2048 .bf16) :
    out0_B_4 c i a2 h2 a3 h3 a4 h4 a5 h5 a6 h6 a7 h7 hc x0 x1 x2 x3 xs = blockOut i x1 x2 xs x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  rw [View.canon_unit_zero hz]
  unfold blockOut
  simp only [View.readAt_eq_ld, h3.read_unread, h4.read_unread, h5.read_unread, h7.read_unread,
    View.ld_unit_zero (S := S1024x2048) hz]

end Cert.KernelIdeal.Pieces

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelPoint.lean ====
/-
  One entry of an output block, on the extended reals.

  With A(p,q) = ∑ₖ a(p,k) · s(k,q) and B(p,q) = ∑ₖ b(p,k) · s(k,q) the products of the two 256-row weight tiles
  a, b with the scratch s (the matrix unit's product into a zero accumulator is this plain sum), and c0..c3 the
  coefficient columns (each a [256,1] column spread along the 2048 lanes, so read at row p), the stored entry is
    combine c0 c1 c2 c3 A B = (c0 + A · (c1 + c3 · B)) + c2 · B,
  the order of operations being the body's own.
-/
import proofs.«125773_j41910290874770_2_alg».proof.Proof.Gen.KernelIdeal.Skeleton
import proofs.«125773_j41910290874770_2_alg».proof.Proof.LibPlainDot
import proofs.«125773_j41910290874770_2_alg».proof.Proof.LibColumns
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Point

open Cert.KernelIdeal Cert.KernelIdeal.Gen

/-- The body's combination of its four coefficients with the two products, in the body's order of operations. -/
def combine (c0 c1 c2 c3 A B : EReal) : EReal := (c0 + A * (c1 + c3 * B)) + c2 * B

/-- The stored value at entry (p, q) of the block. -/
theorem pay_apply (v6 v9 : FVec Ideal S256x1024 .bf16) (v11 : FVec Ideal S1024x2048 .bf16)
    (v14 v16 v18 v20 : FVec Ideal S256x1 .f32) (p : Fin 256) (q : Fin 2048) :
    k0_pay2 (F := Ideal) v6 v9 v11 v14 v16 v18 v20 (ix2 p q)
      = combine (v14 (ix2 p (0 : Fin 1))) (v16 (ix2 p (0 : Fin 1))) (v18 (ix2 p (0 : Fin 1))) (v20 (ix2 p (0 : Fin 1)))
          (∑ k : Fin 1024, v6 (ix2 p k) * v11 (ix2 k q)) (∑ k : Fin 1024, v9 (ix2 p k) * v11 (ix2 k q)) := by
  have hb : ∀ v : FVec Ideal S256x1 .f32,
      broadcastTo S256x2048 v broadcasts_S256x1_S256x2048 (ix2 p q) = v (ix2 p (0 : Fin 1)) :=
    fun v => broadcastTo_a1_ab_apply v _ p q
  have hA : ∀ w : FVec Ideal S256x1024 .bf16,
      matmul dot_S256x1024_S1024x2048_S256x2048_1_0_0_1_n_n none w v11
          (constant (F := Ideal) S256x2048 .f32 0x00000000#32) (ix2 p q)
        = ∑ k : Fin 1024, w (ix2 p k) * v11 (ix2 k q) :=
    fun w => matmul_plain_zero_apply _ rfl none w v11 p q
  unfold k0_pay2 combine
  simp only [shapeCast_self]
  show (broadcastTo S256x2048 v14 broadcasts_S256x1_S256x2048 (ix2 p q)
        + matmul dot_S256x1024_S1024x2048_S256x2048_1_0_0_1_n_n none v6 v11
            (constant (F := Ideal) S256x2048 .f32 0x00000000#32) (ix2 p q)
          * (broadcastTo S256x2048 v16 broadcasts_S256x1_S256x2048 (ix2 p q)
              + broadcastTo S256x2048 v20 broadcasts_S256x1_S256x2048 (ix2 p q)
                * matmul dot_S256x1024_S1024x2048_S256x2048_1_0_0_1_n_n none v9 v11
                    (constant (F := Ideal) S256x2048 .f32 0x00000000#32) (ix2 p q)))
      + broadcastTo S256x2048 v18 broadcasts_S256x1_S256x2048 (ix2 p q)
        * matmul dot_S256x1024_S1024x2048_S256x2048_1_0_0_1_n_n none v9 v11
            (constant (F := Ideal) S256x2048 .f32 0x00000000#32) (ix2 p q) = _
  rw [hb v14, hb v16, hb v18, hb v20, hA v6, hA v9]

end Cert.KernelIdeal.Point

end
-- ==== Proof.KernelArray.lean ====
/-
  The kernel's result array as one function of the arrays the region finds.

  The grid has 8 column tiles (2048 columns each) and, inside each, 4 row tiles (256 rows each); point t is column
  tile t / 4, row tile t % 4. X's window depends on the column tile only, the two weight arrays are staged whole, the
  coefficient window follows the row tile, the output window follows both. The scratch is filled at row tile 0 with
  the current column tile of X and kept for the other three, so after EVERY point it holds that point's own column
  tile of X (scratch_at, by induction over the points: a point of row tile > 0 has the column tile of the point
  before it). Hence every point writes the block of outArr, the array whose entry (r, n) is
    combine C(r,0) C(r,1) C(r,2) C(r,3) (∑ₖ W1(r,k) · X(k,n)) (∑ₖ W2(r,k) · X(k,n)),
  that its output window names (flushed_eq), the 32 blocks tile the array (point 4·(n / 2048) + r / 256 covers
  (r, n)), and the array ends equal to outArr (final).
-/
import proofs.«125773_j41910290874770_2_alg».proof.Proof.Gen.KernelIdeal.Value
import proofs.«125773_j41910290874770_2_alg».proof.Proof.KernelPieces
import proofs.«125773_j41910290874770_2_alg».proof.Proof.KernelPoint

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Pieces Cert.KernelIdeal.Point

variable (m : (ℓ : Loc nD τ sig) → Buf (Elt Ideal) ℓ) (ρ : Dev nD → PrngReg)

/-! ## Where each window's block sits -/

/-- The block indices of the five windows at point t, and the row offset the body computes, decided over the grid. -/
theorem idx_facts : ∀ t : Fin cfg0.N,
    win0_0.index t (0 : Fin 2) = 0 ∧ win0_0.index t (1 : Fin 2) = t.val / 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val % 4 ∧ win0_3.index t (1 : Fin 2) = 0
    ∧ win0_4.index t (0 : Fin 2) = t.val % 4 ∧ win0_4.index t (1 : Fin 2) = t.val / 4
    ∧ k0_off1 (grid0.coords t) 0 = 256 * (t.val % 4) ∧ k0_off1 (grid0.coords t) 1 = 0 :=
  (by decide +kernel : ∀ t : Fin grid0.N, _)

theorem lt32 (t : Fin cfg0.N) : t.val < 32 := lt_of_lt_of_eq t.isLt N_0

/-- The array row of local row p at point t. -/
def rowOf (t : Fin cfg0.N) (p : Fin 256) : Fin 1024 := ⟨256 * (t.val % 4) + p.val, by omega⟩

/-- The array column of local column q at point t. -/
def colOf (t : Fin cfg0.N) (q : Fin 2048) : Fin 16384 := ⟨2048 * (t.val / 4) + q.val, by have := lt32 t; omega⟩

/-- X's block at point t is its column tile t / 4, all 1024 rows. -/
theorem xtile_apply (c : Dev nD) (t : Fin cfg0.N) (k : Fin 1024) (q : Fin 2048) :
    (iblk m c 0 t : Vec Ideal S1024x2048 .f32) (ix2 k q) = V m c main_arg0 (ix2 k (colOf t q)) := by
  obtain ⟨e0, e1, -⟩ := idx_facts t
  show V m c main_arg0 (((cfg0.win 0).blk t).view.emb (ix2 k q)) = _
  congr 1
  funext a; apply Fin.ext
  match a with
  | ⟨0, _⟩ => show win0_0.index t (0 : Fin 2) * 1024 + 1 * k.val = k.val; rw [e0]; omega
  | ⟨1, _⟩ => show win0_0.index t (1 : Fin 2) * 2048 + 1 * q.val = 2048 * (t.val / 4) + q.val; rw [e1]; omega

/-- The first weight array is staged whole at every point. -/
theorem w1_apply (c : Dev nD) (t : Fin cfg0.N) (r k : Fin 1024) :
    (iblk m c 1 t : Vec Ideal S1024x1024 .bf16) (ix2 r k) = V m c main_v11 (ix2 r k) := by
  obtain ⟨-, -, e0, e1, -⟩ := idx_facts t
  show V m c main_v11 (((cfg0.win 1).blk t).view.emb (ix2 r k)) = _
  congr 1
  funext a; apply Fin.ext
  match a with
  | ⟨0, _⟩ => show win0_1.index t (0 : Fin 2) * 1024 + 1 * r.val = r.val; rw [e0]; omega
  | ⟨1, _⟩ => show win0_1.index t (1 : Fin 2) * 1024 + 1 * k.val = k.val; rw [e1]; omega

/-- The second weight array is staged whole at every point. -/
theorem w2_apply (c : Dev nD) (t : Fin cfg0.N) (r k : Fin 1024) :
    (iblk m c 2 t : Vec Ideal S1024x1024 .bf16) (ix2 r k) = V m c main_v23 (ix2 r k) := by
  obtain ⟨-, -, -, -, e0, e1, -⟩ := idx_facts t
  show V m c main_v23 (((cfg0.win 2).blk t).view.emb (ix2 r k)) = _
  congr 1
  funext a; apply Fin.ext
  match a with
  | ⟨0, _⟩ => show win0_2.index t (0 : Fin 2) * 1024 + 1 * r.val = r.val; rw [e0]; omega
  | ⟨1, _⟩ => show win0_2.index t (1 : Fin 2) * 1024 + 1 * k.val = k.val; rw [e1]; omega

/-- The coefficient block at point t is rows 256·(t % 4) … of the coefficient array. -/
theorem coef_apply (c : Dev nD) (t : Fin cfg0.N) (p : Fin 256) (J : Fin 4) :
    (iblk m c 3 t : Vec Ideal S256x4 .f32) (ix2 p J) = V m c main_v35 (ix2 (rowOf t p) J) := by
  obtain ⟨-, -, -, -, -, -, e0, e1, -⟩ := idx_facts t
  show V m c main_v35 (((cfg0.win 3).blk t).view.emb (ix2 p J)) = _
  congr 1
  funext a; apply Fin.ext
  match a with
  | ⟨0, _⟩ => show win0_3.index t (0 : Fin 2) * 256 + 1 * p.val = 256 * (t.val % 4) + p.val; rw [e0]; omega
  | ⟨1, _⟩ => show win0_3.index t (1 : Fin 2) * 4 + 1 * J.val = J.val; rw [e1]; omega

/-- Two points of one column tile see the same block of X. -/
theorem xtile_same (c : Dev nD) (t t' : Fin cfg0.N) (h : t.val / 4 = t'.val / 4) :
    (iblk m c 0 t : Vec Ideal S1024x2048 .f32) = iblk m c 0 t' := by
  funext j
  obtain ⟨k, q, rfl⟩ : ∃ (k : Fin 1024) (q : Fin 2048), j = ix2 k q := ⟨j 0, j 1, eq_ix2 j⟩
  rw [xtile_apply, xtile_apply]
  unfold colOf
  simp only [h]

/-! ## The scratch after each point, and each point's output block -/

set_option maxHeartbeats 3200000 in
/-- After every point the scratch holds that point's column tile of X, narrowed. -/
theorem scratch_at (c : Dev nD) : ∀ (n : ℕ) (h : n < cfg0.N), (outsAt0 m c n h).2 = k0_pay1 (iblk m c 0 ⟨n, h⟩)
  | 0, h => by
    rw [outsAt0_A m c ⟨0, h⟩ rfl]
    dsimp only
    exact scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩)
  | n + 1, h => by
    by_cases h0 : (n + 1) % 4 = 0
    · rw [outsAt0_A m c ⟨n + 1, h⟩ h0]
      dsimp only
      exact scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩)
    · rw [outsAt0_B m c ⟨n + 1, h⟩ h0]
      show (outsAt0 m c n (Nat.lt_of_succ_lt h)).2 = _
      rw [scratch_at c n (Nat.lt_of_succ_lt h)]
      exact congrArg k0_pay1 (xtile_same m c ⟨n, Nat.lt_of_succ_lt h⟩ ⟨n + 1, h⟩ (by show n / 4 = (n + 1) / 4; omega))

set_option maxHeartbeats 3200000 in
/-- Every point's output block is computed from its own blocks, the scratch being its own column tile of X. -/
theorem out_at (c : Dev nD) (t : Fin cfg0.N) :
    (outsAt0 m c t.val t.isLt).1
      = blockOut (grid0.coords t) (iblk m c 1 t) (iblk m c 2 t) (k0_pay1 (iblk m c 0 t)) (iblk m c 3 t) := by
  by_cases h0 : t.val % 4 = 0
  · rw [outsAt0_A m c t h0]
    dsimp only
    exact out_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)
  · have hlt : t.val - 1 < cfg0.N := Nat.lt_of_le_of_lt (Nat.sub_le _ _) t.isLt
    have hs : (outsAt0 m c (t.val - 1) hlt).2 = k0_pay1 (iblk m c 0 t) :=
      (scratch_at m c (t.val - 1) hlt).trans
        (congrArg k0_pay1 (xtile_same m c ⟨t.val - 1, hlt⟩ t (by show (t.val - 1) / 4 = t.val / 4; omega)))
    rw [outsAt0_B m c t h0]
    dsimp only
    rw [hs]
    exact out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (k0_pay1 (iblk m c 0 t))

/-! ## The whole array -/

/-- Entry (r, n) of the result, from X, the two weight arrays and the coefficient array. -/
def outAt (X : FVec Ideal S1024x16384 .f32) (W1 W2 : FVec Ideal S1024x1024 .bf16) (C : FVec Ideal S1024x4 .f32)
    (r : Fin 1024) (n : Fin 16384) : EReal :=
  combine (C (ix2 r (0 : Fin 4))) (C (ix2 r (1 : Fin 4))) (C (ix2 r (2 : Fin 4))) (C (ix2 r (3 : Fin 4)))
    (∑ k : Fin 1024, W1 (ix2 r k) * X (ix2 k n)) (∑ k : Fin 1024, W2 (ix2 r k) * X (ix2 k n))

/-- The result array. -/
def outArr (X : FVec Ideal S1024x16384 .f32) (W1 W2 : FVec Ideal S1024x1024 .bf16) (C : FVec Ideal S1024x4 .f32) :
    FVec Ideal S1024x16384 .f32 :=
  fun I => outAt X W1 W2 C ⟨(I 0).val, (I 0).isLt⟩ ⟨(I 1).val, (I 1).isLt⟩

/-- The rows the body slices out of a weight array: local row p is row 256·(t % 4) + p. -/
theorem ld_rows (x : Vec Ideal S1024x1024 .bf16) (i : grid0.Coords) (p : Fin 256) (k r : Fin 1024)
    (hr : r.val = k0_off1 i 0 + p.val) (h1 : k0_off1 i 1 = 0) :
    View.ld x (Rect.unit (s := S1024x1024) (k0_off1 i) S256x1024.size (k0_off1_inb i)) (ix2 p k) = x (ix2 r k) := by
  show x _ = x _
  congr 1
  funext a; apply Fin.ext
  match a with
  | ⟨0, _⟩ => show k0_off1 i 0 + 1 * p.val = r.val; omega
  | ⟨1, _⟩ => show k0_off1 i 1 + 1 * k.val = k.val; omega

/-- Column J of a coefficient block, read as a [256, 1] column. -/
theorem ld_col (x : Vec Ideal S256x4 .f32) (j : Nat) (J : Fin 4) (hJ : J.val = j)
    (inb : ∀ a, (![0, j] : Fin 2 → Nat) a + S256x1.size a ≤ S256x4.size a) (p : Fin 256) :
    View.ld x (Rect.unit (s := S256x4) ![0, j] S256x1.size inb) (ix2 p (0 : Fin 1)) = x (ix2 p J) := by
  subst hJ
  show x _ = x _
  congr 1
  funext a; apply Fin.ext
  match a with
  | ⟨0, _⟩ => show 0 + 1 * p.val = p.val; omega
  | ⟨1, _⟩ => show J.val + 1 * 0 = J.val; omega

/-- The narrowed copy of a tile has the tile's entries. -/
theorem narrowed_apply (x : Vec Ideal S1024x2048 .f32) (j : S1024x2048.Idx) : k0_pay1 (F := Ideal) x j = x j := by
  unfold k0_pay1
  simp only [shapeCast_self]
  rfl

/-- One entry of a point's block, over plain arrays: if the point's blocks read the arrays X, W1, W2, C where the
    window maps say (the weight arrays whole; X's block column q at array column n; the coefficient block's row p at
    array row r, the row the body's slice starts at plus p), the entry (p, q) is entry (r, n) of outArr. -/
theorem block_entry (i : grid0.Coords) (x1 x2 : Vec Ideal S1024x1024 .bf16) (x0 : Vec Ideal S1024x2048 .f32)
    (x3 : Vec Ideal S256x4 .f32) (X : FVec Ideal S1024x16384 .f32) (W1 W2 : FVec Ideal S1024x1024 .bf16)
    (C : FVec Ideal S1024x4 .f32) (p : Fin 256) (q : Fin 2048) (r : Fin 1024) (n : Fin 16384)
    (hr : r.val = k0_off1 i 0 + p.val) (h1 : k0_off1 i 1 = 0)
    (hx1 : ∀ r' k : Fin 1024, x1 (ix2 r' k) = W1 (ix2 r' k)) (hx2 : ∀ r' k : Fin 1024, x2 (ix2 r' k) = W2 (ix2 r' k))
    (hx0 : ∀ k : Fin 1024, x0 (ix2 k q) = X (ix2 k n)) (hx3 : ∀ J : Fin 4, x3 (ix2 p J) = C (ix2 r J)) :
    blockOut i x1 x2 (k0_pay1 x0) x3 (ix2 p q) = outAt X W1 W2 C r n := by
  unfold blockOut outAt
  rw [pay_apply, ld_col x3 0 0 rfl inb_S256x4_S256x1_0_0 p, ld_col x3 1 1 rfl inb_S256x4_S256x1_0_1 p,
    ld_col x3 2 2 rfl inb_S256x4_S256x1_0_2 p, ld_col x3 3 3 rfl inb_S256x4_S256x1_0_3 p, hx3, hx3, hx3, hx3]
  congr 1
  · exact Finset.sum_congr rfl fun k _ => by rw [ld_rows x1 i p k r hr h1, hx1, narrowed_apply, hx0]
  · exact Finset.sum_congr rfl fun k _ => by rw [ld_rows x2 i p k r hr h1, hx2, narrowed_apply, hx0]

set_option maxHeartbeats 1600000 in
/-- What point t writes back is the block of outArr that its output window names. -/
theorem flushed_eq (c : Dev nD) (t : Fin cfg0.N) :
    (dats m 0 c).flushed 4 t
      = ((cfg0.win 4).blk t).view.read (Elt Ideal)
          (outArr (V m c main_arg0) (V m c main_v11) (V m c main_v23) (V m c main_v35)) := by
  rw [Value.flushed4, out_at]
  obtain ⟨-, -, -, -, -, -, -, -, e0, e1, o0, o1⟩ := idx_facts t
  funext j
  obtain ⟨p, q, rfl⟩ : ∃ (p : Fin 256) (q : Fin 2048), j = ix2 p q := ⟨j 0, j 1, eq_ix2 j⟩
  have hemb : ((cfg0.win 4).blk t).view.emb (ix2 p q) = ix2 (rowOf t p) (colOf t q) := by
    funext a; apply Fin.ext
    match a with
    | ⟨0, _⟩ => show win0_4.index t (0 : Fin 2) * 256 + 1 * p.val = 256 * (t.val % 4) + p.val; rw [e0]; omega
    | ⟨1, _⟩ => show win0_4.index t (1 : Fin 2) * 2048 + 1 * q.val = 2048 * (t.val / 4) + q.val; rw [e1]; omega
  have hrow : (rowOf t p).val = k0_off1 (grid0.coords t) 0 + p.val := by rw [o0]; rfl
  have key := block_entry (grid0.coords t) (iblk m c 1 t) (iblk m c 2 t) (iblk m c 0 t) (iblk m c 3 t)
    (V m c main_arg0) (V m c main_v11) (V m c main_v23) (V m c main_v35) p q (rowOf t p) (colOf t q) hrow o1
    (w1_apply m c t) (w2_apply m c t) (fun k => xtile_apply m c t k q) (fun J => coef_apply m c t p J)
  exact key.trans (congrArg (outArr (V m c main_arg0) (V m c main_v11) (V m c main_v23) (V m c main_v35)) hemb).symm

/-- An index is in point t's output block iff each coordinate is in the block's range. -/
theorem mem_blk (t : Fin cfg0.N) (i : S1024x16384.Idx) :
    i ∈ ((cfg0.win 4).blk t).view.set
      ↔ ∀ a : Fin 2, win0_4.index t a * S256x2048.size a ≤ (i a).val
          ∧ (i a).val < win0_4.index t a * S256x2048.size a + S256x2048.size a := by
  show i ∈ ((View.whole main_v36).slice (win0_4.rect t)).set ↔ _
  rw [View.set_slice_whole, Rect.mem_set_unit]
  exact Iff.rfl

/-- Entry (r, n) is covered by the point of column tile n / 2048 and row tile r / 256. -/
theorem cover (i : S1024x16384.Idx) :
    ∃ t : Fin cfg0.N, (cfg0.win 4).flush t = true ∧ i ∈ ((cfg0.win 4).blk t).view.set := by
  have h0 : (i 0).val < 1024 := (i 0).isLt
  have h1 : (i 1).val < 16384 := (i 1).isLt
  have hN : cfg0.N = 32 := N_0
  refine ⟨⟨4 * ((i 1).val / 2048) + (i 0).val / 256, by rw [hN]; omega⟩, flush0_4 _, ?_⟩
  rw [mem_blk]
  obtain ⟨-, -, -, -, -, -, -, -, e0, e1, -⟩ :=
    idx_facts ⟨4 * ((i 1).val / 2048) + (i 0).val / 256, by rw [hN]; omega⟩
  intro a
  match a with
  | ⟨0, _⟩ =>
    show win0_4.index _ (0 : Fin 2) * 256 ≤ (i 0).val ∧ (i 0).val < win0_4.index _ (0 : Fin 2) * 256 + 256
    rw [e0]; dsimp only; omega
  | ⟨1, _⟩ =>
    show win0_4.index _ (1 : Fin 2) * 2048 ≤ (i 1).val ∧ (i 1).val < win0_4.index _ (1 : Fin 2) * 2048 + 2048
    rw [e1]; dsimp only; omega

/-- The result array after the run. -/
theorem final (c : Dev nD) :
    (dats m 0 c).arrAt 4 cfg0.N = outArr (V m c main_arg0) (V m c main_v11) (V m c main_v23) (V m c main_v35) :=
  (dats m 0 c).arrAt_eq_of_cover 4 _ (fun t _ => flushed_eq m c t) cover

/-- The run, read: the result array at outArr of the arrays the region finds, the arguments unchanged. -/
theorem run : θ_run defs (onTc (τ := τ) (main (F := Ideal))) ⟨m, fun _ => 0, ρ⟩ fun r => ∀ c : Dev nD,
      r.2.mem ((c : Thread nD τ).loc main_v36) = outArr (V m c main_arg0) (V m c main_v11) (V m c main_v23) (V m c main_v35)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Arr

end
-- ==== Proof.LibRealArrays.lean ====
/-
  Arrays of extended reals whose entries are all real numbers.

  On the extended reals the distributive law and the exchange of a product with a sum fail at the
  infinities, so a law that needs them is applied only to arrays known to hold real numbers. This
  file says which array operations keep that property: an operation that re-lays entries
  (transpose, slice, broadcast, concatenate, gather) returns entries of its operands; a pointwise
  sum, difference, product, negation, maximum, exponential or hyperbolic tangent of real numbers is
  a real number; a quotient by a POSITIVE real and the reciprocal square root of a POSITIVE real are
  real numbers; a finite sum of real numbers is a real number, hence so is every entry of a matrix
  product and of an accumulating scatter of real arrays.
-/
import Idealize.ShloMosaic.PureOps.Ideal
import Idealize.ShloMosaic.PureOps.Ideal.Laws

noncomputable section

namespace RealArrays

open Idealize.ShloMosaic

/-! ## Real and positive extended reals -/

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- The maximum of a real number and a positive real number is a positive real number. -/
theorem IsPos.max_right {x y : EReal} (hx : IsReal x) (hy : IsPos y) : IsPos (max x y) := by
  rcases le_total x y with h | h
  · rw [max_eq_right h]; exact hy
  · rw [max_eq_left h]
    obtain ⟨a, rfl⟩ := hx; obtain ⟨b, hb, rfl⟩ := hy
    exact ⟨a, lt_of_lt_of_le hb (by exact_mod_cast h), rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

theorem IsPos.exp {x : EReal} (hx : IsReal x) : IsPos (Ideal.exp x) := by
  obtain ⟨a, rfl⟩ := hx; exact ⟨Real.exp a, Real.exp_pos a, Ideal.exp_coe a⟩

theorem IsReal.tanh {x : EReal} (hx : IsReal x) : IsReal (Ideal.tanh x) := by
  obtain ⟨a, rfl⟩ := hx; exact ⟨Real.tanh a, Ideal.tanh_coe a⟩

/-- A real number over a positive real number is a real number. -/
theorem IsReal.div_pos {x y : EReal} (hx : IsReal x) (hy : IsPos y) : IsReal (Ideal.div x y) := by
  obtain ⟨b, hb, rfl⟩ := hy
  rw [Ideal.div_coe (ne_of_gt hb)]
  exact hx.mul (isReal_coe _)

/-- The reciprocal square root of a positive real number is a real number. -/
theorem IsReal.rsqrt_pos {x : EReal} (hx : IsPos x) : IsReal (Ideal.rsqrt x) := by
  obtain ⟨a, ha, rfl⟩ := hx
  rw [Ideal.rsqrt_coe, if_neg (not_lt.2 ha.le), if_neg (ne_of_gt ha)]
  exact isReal_coe _

/-- A finite sum of real numbers is a real number. -/
theorem IsReal.sum {ι : Type*} (s : Finset ι) (f : ι → EReal) (h : ∀ i ∈ s, IsReal (f i)) :
    IsReal (∑ i ∈ s, f i) := by
  classical
  revert h
  refine Finset.induction_on s (fun _ => ?_) (fun a s ha ih h => ?_)
  · rw [Finset.sum_empty]; exact isReal_zero
  · rw [Finset.sum_insert ha]
    exact (h a (Finset.mem_insert_self a s)).add (ih fun i hi => h i (Finset.mem_insert_of_mem hi))

/-- The coercion of a finite sum of real numbers is the sum of the coercions. -/
theorem coe_sum {ι : Type*} (s : Finset ι) (f : ι → ℝ) :
    ((∑ i ∈ s, f i : ℝ) : EReal) = ∑ i ∈ s, (f i : EReal) := by
  classical
  refine Finset.induction_on s ?_ (fun a s ha ih => ?_)
  · rw [Finset.sum_empty, Finset.sum_empty]; exact EReal.coe_zero
  · rw [Finset.sum_insert ha, Finset.sum_insert ha, EReal.coe_add, ih]

/-! ## Arrays -/

variable {s t : Shape} {φ ψ : FTy}

/-- Every entry of the array is a real number. -/
def AllReal (v : s.Idx → EReal) : Prop := ∀ i, IsReal (v i)

/-- Every entry of the array is a positive real number. -/
def AllPos (v : s.Idx → EReal) : Prop := ∀ i, IsPos (v i)

theorem AllPos.allReal {v : s.Idx → EReal} (h : AllPos v) : AllReal v := fun i => (h i).isReal

/-! ### Pointwise operations at the ideal instance -/

theorem AllReal.addf {a b : FVec Ideal s φ} (ha : AllReal a) (hb : AllReal b) : AllReal (addf a b) :=
  fun i => (ha i).add (hb i)

theorem AllReal.subf {a b : FVec Ideal s φ} (ha : AllReal a) (hb : AllReal b) : AllReal (subf a b) :=
  fun i => (ha i).sub (hb i)

theorem AllReal.mulf {a b : FVec Ideal s φ} (ha : AllReal a) (hb : AllReal b) : AllReal (mulf a b) :=
  fun i => (ha i).mul (hb i)

theorem AllReal.maximumf {a b : FVec Ideal s φ} (ha : AllReal a) (hb : AllReal b) : AllReal (maximumf a b) :=
  fun i => (ha i).max (hb i)

theorem AllPos.maximumf_right {a b : FVec Ideal s φ} (ha : AllReal a) (hb : AllPos b) : AllPos (maximumf a b) :=
  fun i => IsPos.max_right (ha i) (hb i)

theorem AllPos.addf {a b : FVec Ideal s φ} (ha : AllPos a) (hb : AllPos b) : AllPos (addf a b) :=
  fun i => (ha i).add (hb i)

theorem AllReal.hostNegf {a : FVec Ideal s φ} (ha : AllReal a) : AllReal (Host.negf a) :=
  fun i => (ha i).neg

theorem AllPos.hostExp {a : FVec Ideal s φ} (ha : AllReal a) : AllPos (Host.exp a) :=
  fun i => IsPos.exp (ha i)

theorem AllReal.hostTanh {a : FVec Ideal s φ} (ha : AllReal a) : AllReal (Host.tanh a) :=
  fun i => (ha i).tanh

theorem AllReal.hostDivf {a b : FVec Ideal s φ} (ha : AllReal a) (hb : AllPos b) : AllReal (Host.divf a b) :=
  fun i => (ha i).div_pos (hb i)

theorem AllReal.hostRsqrt {a : FVec Ideal s φ} (ha : AllPos a) : AllReal (Host.rsqrt a) :=
  fun i => IsReal.rsqrt_pos (ha i)

/-- A selection between two real arrays is a real array, whatever the mask. -/
theorem AllReal.select {c : IVec s 1} {a b : s.Idx → EReal} (ha : AllReal a) (hb : AllReal b) :
    AllReal (select c a b) := fun i => by
  show IsReal (Scalar.select (c i) (a i) (b i))
  unfold Scalar.select
  split
  · exact ha i
  · exact hb i

/-! ### Operations that re-lay entries -/

theorem AllReal.transpose {x : s.Idx → EReal} (hx : AllReal x) (perm : List (Fin s.rank)) (h : s.Transposes perm t) :
    AllReal (transpose t perm x h) := fun _ => hx _

theorem AllReal.broadcastInDim {x : s.Idx → EReal} (hx : AllReal x) (dims : Fin s.rank → Fin t.rank)
    (h : s.BroadcastsInDim t dims) : AllReal (broadcastInDim t dims h x) := fun _ => hx _

theorem AllPos.broadcastInDim {x : s.Idx → EReal} (hx : AllPos x) (dims : Fin s.rank → Fin t.rank)
    (h : s.BroadcastsInDim t dims) : AllPos (broadcastInDim t dims h x) := fun _ => hx _

theorem AllReal.extractStridedSlice {x : s.Idx → EReal} (hx : AllReal x) (off : Fin s.rank → Nat) (h : s.Slices off t) :
    AllReal (extractStridedSlice t off x h) := fun _ => hx _

theorem AllReal.shapeCast {x : s.Idx → EReal} (hx : AllReal x) (h : s.ShapeCasts t) :
    AllReal (shapeCast t x h) := fun _ => hx _

/-- A gather reads entries of its operand, whatever the indices. -/
theorem AllReal.hostGather {si : Shape} {w : Nat} {x : s.Idx → EReal} (hx : AllReal x) (d : GatherDims s si t)
    (idx : IVec si w) : AllReal (Host.gather d x idx) := fun _ => hx _

/-- A concatenation of real arrays is a real array. -/
theorem AllReal.concatenate (a : Fin t.rank) (xs : List ((s : Shape) × (s.Idx → EReal)))
    (h : Shape.Concatenates (xs.map (·.1)) t a) (hx : ∀ p ∈ xs, AllReal p.2) : AllReal (concatenate t a xs h) := by
  intro j
  unfold Idealize.ShloMosaic.concatenate
  exact hx _ (List.getElem_mem _) _

/-! ### Sums: the host's matrix product and its accumulating scatter -/

/-- Every entry of the host's product of two real arrays is a finite sum of products of real numbers. -/
theorem AllReal.hostDotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (FloatOps.dotGeneral d prec .single l r j)
  rw [Ideal.dotGeneral_apply]
  exact IsReal.sum _ _ fun k _ => (hl _).mul (hr _)

/-- Every entry of an accumulating scatter of real updates onto a real array is that array's entry plus a
    finite sum of updates. -/
theorem AllReal.hostScatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (IsReal.sum _ _ fun j _ => hu j)

end RealArrays

end
-- ==== Proof.LibSoftmaxReal.lean ====
/-
  The softmax of real numbers, as jax lowers it on the host, is an array of real numbers.

  jax.nn.softmax along one axis prints as: m = max(−∞, reduce-max from −∞ over the axis), spread back over the
  axis in two broadcasts; e = exp(x − m); z = 0 + the sum of e over the axis, spread back the same way; e / z.
  For real x and a nonempty axis: the maximum of finitely many reals, at least one of them, started from −∞ is a
  real number; x − m is real; e is a positive real; z, a sum of positive reals over a nonempty axis, is a positive
  real; so the quotient is real. General in the shapes and in the broadcasts' dimension maps (rows or columns).
-/
import proofs.«125773_j41910290874770_2_alg».proof.Proof.LibRealArrays
import Idealize.ShloMosaic.PureOps.Ideal.Laws
import Idealize.ShloMosaic.PureOps.Reduce

noncomputable section

namespace SoftmaxReal

open Idealize.ShloMosaic RealArrays

/-- The word 0xFF800000 is −∞. -/
theorem negInf_word : Ideal.ofBits .f32 0xFF800000#32 = (⊥ : EReal) := by simp [Ideal.ofBits, Ideal.ieee]

/-- The maximum of finitely many real numbers, at least one of them, started from −∞, is a real number. -/
theorem isReal_fold_max {n : ℕ} (hn : 0 < n) (g : Fin n → EReal) (hg : ∀ k, IsReal (g k)) :
    IsReal ((Finset.univ : Finset (Fin n)).fold max ⊥ g) := by
  have hlt : (Finset.univ : Finset (Fin n)).fold max ⊥ g < ⊤ :=
    (Finset.fold_max_lt ⊤).2 ⟨bot_lt_top, fun k _ => by obtain ⟨r, hr⟩ := hg k; rw [hr]; exact EReal.coe_lt_top r⟩
  have hgt : ⊥ < (Finset.univ : Finset (Fin n)).fold max ⊥ g := by
    obtain ⟨r, hr⟩ := hg ⟨0, hn⟩
    refine lt_of_lt_of_le (EReal.bot_lt_coe r) ?_
    exact (Finset.le_fold_max _).2 (Or.inr ⟨⟨0, hn⟩, Finset.mem_univ _, hr ▸ le_refl _⟩)
  exact ⟨_, (EReal.coe_toReal (ne_of_lt hlt) (ne_of_gt hgt)).symm⟩

/-- A sum of positive real numbers over a nonempty range is a positive real number. -/
theorem isPos_sum {n : ℕ} (hn : 0 < n) (f : Fin n → EReal) (hf : ∀ k, IsPos (f k)) : IsPos (∑ k, f k) := by
  choose r hr using hf
  have hf' : f = fun k => ((r k : ℝ) : EReal) := funext fun k => (hr k).2
  rw [hf', ← coe_sum]
  exact ⟨_, Finset.sum_pos (fun k _ => (hr k).1) ⟨⟨0, hn⟩, Finset.mem_univ _⟩, rfl⟩

variable {s t u t1 : Shape} {a : Fin s.rank}

/-- The host's reduce with a maximum body from −∞ over one nonempty axis of a real array is a real array. -/
theorem allReal_reduceMax (x : FVec Ideal s .f32) (hx : AllReal x) (h' : s.ReducesTo [a] t) (h : s.Reduces [a] t)
    (hpos : 0 < s.size a) (hu : 0 < u.numel) :
    AllReal (Host.reduce (FloatOps.maximumf (F := Ideal) (φ := .f32)) x (constant (F := Ideal) u .f32 0xFF800000#32) h' hu) := by
  intro j
  rw [Host.reduce_eq_fold_single (FloatOps.maximumf (F := Ideal) (φ := .f32)) x _ h' h hu]
  show IsReal ((Finset.univ : Finset (Fin (s.size a))).fold max (Ideal.ofBits .f32 0xFF800000#32) (x ∘ h.lift j))
  rw [negInf_word]
  exact isReal_fold_max hpos _ fun k => hx _

/-- The host's float sum from zero over one nonempty axis of a positive array is a positive array. -/
theorem allPos_reduceAdd (x : FVec Ideal s .f32) (hx : AllPos x) (h' : s.ReducesTo [a] t) (h : s.Reduces [a] t)
    (hpos : 0 < s.size a) (hu : 0 < u.numel) :
    AllPos (Host.reduceAdd x (constant (F := Ideal) u .f32 0x00000000#32) h' hu) := by
  intro j
  show IsPos (Ideal.hostReduceAdd h' x (Ideal.ofBits .f32 0x00000000#32) j)
  rw [Ideal.hostReduceAdd_single h' h, Ideal.ofBits_zero_f32, zero_add]
  exact isPos_sum hpos _ fun k => hx _

/-- The softmax along axis a as jax lowers it: the maximum from −∞ (joined with a −∞ array), spread back in two
    broadcasts, subtracted; the exponential; its sum from zero, spread back the same way; the quotient. -/
def chain (x : FVec Ideal s .f32) (h' : s.ReducesTo [a] t) (hu : 0 < u.numel)
    {d0 : Fin u.rank → Fin t.rank} (b0 : u.BroadcastsInDim t d0)
    {d1 : Fin t.rank → Fin t1.rank} (b1 : t.BroadcastsInDim t1 d1)
    {d2 : Fin t1.rank → Fin s.rank} (b2 : t1.BroadcastsInDim s d2) : FVec Ideal s .f32 :=
  Host.divf
    (Host.exp (subf x (broadcastInDim s d2 b2 (broadcastInDim t1 d1 b1
      (maximumf (broadcastInDim t d0 b0 (constant (F := Ideal) u .f32 0xFF800000#32))
        (Host.reduce (FloatOps.maximumf (F := Ideal) (φ := .f32)) x (constant (F := Ideal) u .f32 0xFF800000#32) h' hu))))))
    (broadcastInDim s d2 b2 (broadcastInDim t1 d1 b1
      (Host.reduceAdd
        (Host.exp (subf x (broadcastInDim s d2 b2 (broadcastInDim t1 d1 b1
          (maximumf (broadcastInDim t d0 b0 (constant (F := Ideal) u .f32 0xFF800000#32))
            (Host.reduce (FloatOps.maximumf (F := Ideal) (φ := .f32)) x (constant (F := Ideal) u .f32 0xFF800000#32) h' hu))))))
        (constant (F := Ideal) u .f32 0x00000000#32) h' hu)))

/-- The softmax chain of a real array along a nonempty axis is a real array. -/
theorem allReal_chain (x : FVec Ideal s .f32) (hx : AllReal x) (h' : s.ReducesTo [a] t) (h : s.Reduces [a] t)
    (hpos : 0 < s.size a) (hu : 0 < u.numel)
    {d0 : Fin u.rank → Fin t.rank} (b0 : u.BroadcastsInDim t d0)
    {d1 : Fin t.rank → Fin t1.rank} (b1 : t.BroadcastsInDim t1 d1)
    {d2 : Fin t1.rank → Fin s.rank} (b2 : t1.BroadcastsInDim s d2) :
    AllReal (chain x h' hu b0 b1 b2) := by
  have hmax : AllReal (maximumf (broadcastInDim t d0 b0 (constant (F := Ideal) u .f32 0xFF800000#32))
      (Host.reduce (FloatOps.maximumf (F := Ideal) (φ := .f32)) x (constant (F := Ideal) u .f32 0xFF800000#32) h' hu)) := fun j => by
    show IsReal (max (Ideal.ofBits .f32 0xFF800000#32)
      (Host.reduce (FloatOps.maximumf (F := Ideal) (φ := .f32)) x (constant (F := Ideal) u .f32 0xFF800000#32) h' hu j))
    rw [negInf_word, max_eq_right bot_le]
    exact allReal_reduceMax x hx h' h hpos hu j
  have hsub := hx.subf ((hmax.broadcastInDim d1 b1).broadcastInDim d2 b2)
  have hexp := AllPos.hostExp hsub
  have hsum := allPos_reduceAdd _ hexp h' h hpos hu
  exact AllReal.hostDivf hexp.allReal ((hsum.broadcastInDim d1 b1).broadcastInDim d2 b2)

end SoftmaxReal

end
-- ==== Proof.HostPrefix.lean ====
/-
  What the region finds, as functions of the arguments. Before the kernel runs, the host computes the softmax of
  each weight array along its rows (narrowed to bf16, which is the identity on the extended reals), the softmax of
  the gate logits along the sixteen gates, and the coefficient array: that softmax contracted with the constant
  16 × 4 gate table over the gates.
-/
import proofs.«125773_j41910290874770_2_alg».proof.Proof.Gen.KernelIdeal.Frame
import proofs.«125773_j41910290874770_2_alg».proof.Proof.LibSoftmaxReal
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Prefix

open Cert.KernelIdeal Cert.KernelIdeal.Gen

variable (m : (ℓ : Loc nD τ sig) → Buf (Elt Ideal) ℓ)

/-- The softmax of a [1024, 1024] array along each row. -/
def rowsSoftmax (x : FVec Ideal S1024x1024 .f32) : FVec Ideal S1024x1024 .f32 :=
  SoftmaxReal.chain (a := (1 : Fin 2)) x reducesTo_S1024x1024_S1024_d1 h_S_ bcast_S_S1024 bcast_S1024_S1024x1_0
    bcast_S1024x1_S1024x1024_0_1

/-- The softmax of the [16, 1024] gate logits along the sixteen gates. -/
def gatesSoftmax (x : FVec Ideal S16x1024 .f32) : FVec Ideal S16x1024 .f32 :=
  SoftmaxReal.chain (a := (0 : Fin 2)) x reducesTo_S16x1024_S1024_d0 h_S_ bcast_S_S1024 bcast_S1024_S1x1024_1
    bcast_S1x1024_S16x1024_0_1

/-- The constant gate table: gate k's coefficients of 1, a, b, a·b. -/
def table : FVec Ideal S16x4 .f32 := fun i => FloatOps.ofBits .f32 (lit0 (S16x4.rowMajor i))

theorem w1_eq (c : Dev nD) :
    (V m c main_v11 : S1024x1024.Idx → EReal) = rowsSoftmax (m ((c : Thread nD τ).loc main_arg1)) := by
  dsimp only [Gen.V, Gen.hostOps0]; after_results_simp; rfl

theorem w2_eq (c : Dev nD) :
    (V m c main_v23 : S1024x1024.Idx → EReal) = rowsSoftmax (m ((c : Thread nD τ).loc main_arg2)) := by
  dsimp only [Gen.V, Gen.hostOps0]; after_results_simp; rfl

theorem coef_eq (c : Dev nD) :
    (V m c main_v35 : S1024x4.Idx → EReal)
      = Host.dotGeneral (F := Ideal) dot_S16x1024_S16x4_S1024x4_0_0_1_1_n_n none
          (gatesSoftmax (m ((c : Thread nD τ).loc main_arg3))) table := by
  dsimp only [Gen.V, Gen.hostOps0]; after_results_simp; rfl

end Cert.KernelIdeal.Prefix

end
-- ==== Proof.CoefDot.lean ====
/-
  The coefficient array at an entry. jnp.einsum('im,ic->mc', pT, table) prints as a dot_general contracting axis 0 of
  both operands: entry (r, J) of the [1024, 4] result is ∑ₖ pT(k, r) · table(k, J) over the sixteen gates k.
-/
import proofs.«125773_j41910290874770_2_alg».proof.KernelIdeal
import proofs.«125773_j41910290874770_2_alg».proof.Proof.Gen.KernelIdeal
import Idealize.ShloMosaic.Lib.ValueIdx
import Idealize.ShloMosaic.PureOps.Ideal.Laws

noncomputable section

open Idealize.ShloMosaic Idealize.ShloMosaic.ValueIdx

namespace Cert.KernelIdeal.CoefDot

open Cert.KernelIdeal

/-- The product's dimension numbers: both operands contracted on their first axis. -/
abbrev dC : DotDims S16x1024 S16x4 S1024x4 := dot_S16x1024_S16x4_S1024x4_0_0_1_1_n_n

theorem lhs0 (i : S1024x4.Idx) (q : dC.contr.Idx) : (dC.lhsIdx i q 0).val = (q ⟨0, by decide⟩).val :=
  dC.lhsIdx_val_of_single rfl i q

theorem lhs1 (i : S1024x4.Idx) (q : dC.contr.Idx) : (dC.lhsIdx i q 1).val = (i 0).val := by
  unfold DotDims.lhsIdx
  rw [dif_neg (show ¬(1 : Fin S16x1024.rank) ∈ dC.lhsBatch by decide),
    dif_pos (show (1 : Fin S16x1024.rank) ∈ dC.lhsNonContracting by decide)]
  rfl

theorem rhs0 (i : S1024x4.Idx) (q : dC.contr.Idx) : (dC.rhsIdx i q 0).val = (q ⟨0, by decide⟩).val :=
  dC.rhsIdx_val_of_single rfl i q

theorem rhs1 (i : S1024x4.Idx) (q : dC.contr.Idx) : (dC.rhsIdx i q 1).val = (i 1).val := by
  unfold DotDims.rhsIdx
  rw [dif_neg (show ¬(1 : Fin S16x4.rank) ∈ dC.rhsBatch by decide),
    dif_pos (show (1 : Fin S16x4.rank) ∈ dC.rhsNonContracting by decide)]
  rfl

/-- Entry (r, J) of the coefficient array. -/
theorem coef_apply (l : FVec Ideal S16x1024 .f32) (r : FVec Ideal S16x4 .f32) (p : Fin 1024) (J : Fin 4) :
    Host.dotGeneral (F := Ideal) dC none l r (ix2 p J) = ∑ k : Fin 16, l (ix2 k p) * r (ix2 k J) := by
  simp only [Host.dotGeneral]
  rw [Ideal.dotGeneral_apply, ← Equiv.sum_comp (contrEquiv1 dC 16 rfl rfl).symm]
  refine Finset.sum_congr rfl fun k _ => ?_
  have hk := contrEquiv1_symm_val dC 16 rfl rfl k
  have el : dC.lhsIdx (ix2 p J) ((contrEquiv1 dC 16 rfl rfl).symm k) = ix2 k p := funext fun a => Fin.ext (by
    match a with
    | ⟨0, _⟩ => exact (lhs0 _ _).trans hk
    | ⟨1, _⟩ => exact lhs1 _ _)
  have er : dC.rhsIdx (ix2 p J) ((contrEquiv1 dC 16 rfl rfl).symm k) = ix2 k J := funext fun a => Fin.ext (by
    match a with
    | ⟨0, _⟩ => exact (rhs0 _ _).trans hk
    | ⟨1, _⟩ => exact rhs1 _ _)
  rw [el, er]

end Cert.KernelIdeal.CoefDot

end
-- ==== Proof.GateAlgebra.lean ====
/-
  The mixture of the sixteen soft logic gates is a polynomial in the two inputs.

  For real a, b each gate is an affine combination of 1, a, b, a·b:
    gate k = coef k 0 + coef k 1 · a + coef k 2 · b + coef k 3 · (a·b),
  with the integer table coef below (FALSE, AND, a∧¬b, a, ¬a∧b, b, XOR, OR, NOR, XNOR, ¬b, b→a, ¬a, a→b, NAND, TRUE).
  Hence for real weights p the mixture ∑ₖ gate k · p k equals c0 + a·(c1 + c3·b) + c2·b with cJ = ∑ₖ p k · coef k J:
  distributivity over ℝ. On the extended reals the same holds when a, b and the weights are real numbers (mix): the
  distributive law is used, so finiteness is needed.
-/
import proofs.«125773_j41910290874770_2_alg».proof.Proof.LibRealArrays
import Idealize.ShloMosaic.PureOps.Ideal.Laws
import Idealize.ShloMosaic.Lib.IdealHost

noncomputable section

namespace GateAlgebra

open Idealize.ShloMosaic RealArrays

/-! ## The literal words -/

theorem word_zero : Ideal.ofBits .f32 0x00000000#32 = ((0 : ℝ) : EReal) :=
  Ideal.ofBits_zero_f32.trans EReal.coe_zero.symm

theorem word_one : Ideal.ofBits .f32 0x3F800000#32 = ((1 : ℝ) : EReal) :=
  Ideal.ofBits_one_f32.trans EReal.coe_one.symm

theorem word_neg_one : Ideal.ofBits .f32 0xBF800000#32 = ((-1 : ℝ) : EReal) := by
  simp [Ideal.ofBits, Ideal.ieee, -EReal.coe_mul, -EReal.coe_neg]; norm_num

theorem word_two : Ideal.ofBits .f32 0x40000000#32 = ((2 : ℝ) : EReal) := by
  simp [Ideal.ofBits, Ideal.ieee, -EReal.coe_mul]; norm_num

theorem word_neg_two : Ideal.ofBits .f32 0xC0000000#32 = ((-2 : ℝ) : EReal) := by
  simp [Ideal.ofBits, Ideal.ieee, -EReal.coe_mul, -EReal.coe_neg]; norm_num

/-! ## Over the reals -/

/-- Gate k as coef k 0 + coef k 1 · a + coef k 2 · b + coef k 3 · a·b. -/
def coef : Fin 16 → Fin 4 → ℝ :=
  ![![0, 0, 0, 0], ![0, 0, 0, 1], ![0, 1, 0, -1], ![0, 1, 0, 0], ![0, 0, 1, -1], ![0, 0, 1, 0], ![0, 1, 1, -2],
    ![0, 1, 1, -1], ![1, -1, -1, 1], ![1, -1, -1, 2], ![1, 0, -1, 0], ![1, 0, -1, 1], ![1, -1, 0, 0], ![1, -1, 0, 1],
    ![1, 0, 0, -1], ![1, 0, 0, 0]]

/-- The sixteen gates, each written with the operations the reference uses. -/
def gate (a b : ℝ) : Fin 16 → ℝ :=
  ![0, a * b, a - a * b, a, b - a * b, b, (a + b) - 2 * (a * b), (a + b) - a * b, 1 - ((a + b) - a * b),
    1 - ((a + b) - 2 * (a * b)), 1 - b, (1 - b) + a * b, 1 - a, (1 - a) + a * b, 1 - a * b, 1]

/-- The gate mixture is the kernel's polynomial in a and b. -/
theorem mix_real (a b : ℝ) (p : Fin 16 → ℝ) :
    0 + ∑ k, gate a b k * p k
      = ((∑ k, p k * coef k 0) + a * ((∑ k, p k * coef k 1) + (∑ k, p k * coef k 3) * b))
        + (∑ k, p k * coef k 2) * b := by
  simp [Fin.sum_univ_succ, gate, coef] <;> ring

/-! ## On the extended reals -/

/-- The sixteen gates on the extended reals, with the constants zero, one and two as parameters. -/
def gateE (z one two A B : EReal) : Fin 16 → EReal :=
  ![z, A * B, A - A * B, A, B - A * B, B, (A + B) - two * (A * B), (A + B) - A * B, one - ((A + B) - A * B),
    one - ((A + B) - two * (A * B)), one - B, (one - B) + A * B, one - A, (one - A) + A * B, one - A * B, one]

/-- At real numbers the extended-real gates are the real gates. -/
theorem gateE_coe (a b : ℝ) (k : Fin 16) :
    gateE ((0 : ℝ) : EReal) ((1 : ℝ) : EReal) ((2 : ℝ) : EReal) (a : EReal) (b : EReal) k = ((gate a b k : ℝ) : EReal) := by
  fin_cases k <;> simp [gateE, gate]

/-- The gate mixture of real numbers with real weights, on the extended reals, is the kernel's polynomial. -/
theorem mix (A B : EReal) (P : Fin 16 → EReal) (hA : IsReal A) (hB : IsReal B) (hP : ∀ k, IsReal (P k))
    (L : Fin 16 → Fin 4 → EReal) (hL : ∀ k J, L k J = ((coef k J : ℝ) : EReal)) :
    ((0 : ℝ) : EReal) + ∑ k, gateE ((0 : ℝ) : EReal) ((1 : ℝ) : EReal) ((2 : ℝ) : EReal) A B k * P k
      = ((∑ k, P k * L k 0) + A * ((∑ k, P k * L k 1) + (∑ k, P k * L k 3) * B)) + (∑ k, P k * L k 2) * B := by
  obtain ⟨a, rfl⟩ := hA
  obtain ⟨b, rfl⟩ := hB
  choose p hp using hP
  obtain rfl : P = fun k => ((p k : ℝ) : EReal) := funext hp
  simp only [hL, gateE_coe, ← EReal.coe_mul, ← coe_sum, ← EReal.coe_add]
  exact congrArg _ (mix_real a b p)

end GateAlgebra

end
-- ==== Proof.KernelValue.lean ====
/-
  The kernel's result as a function of its four arguments.

  result X x1 x2 x3 is outArr of X, the row softmaxes of the two weight arrays and the coefficient array
  C(r, J) = ∑ₖ pT(k, r) · table(k, J), pT the softmax of the gate logits over the sixteen gates. At entry (r, n):
    combine C(r,0) C(r,1) C(r,2) C(r,3) (∑ₖ pA(r,k) · X(k,n)) (∑ₖ pB(r,k) · X(k,n)).
  The table's words are the integers of GateAlgebra.coef. For real arguments the three softmaxes are real.
-/
import proofs.«125773_j41910290874770_2_alg».proof.Proof.KernelArray
import proofs.«125773_j41910290874770_2_alg».proof.Proof.HostPrefix
import proofs.«125773_j41910290874770_2_alg».proof.Proof.CoefDot
import proofs.«125773_j41910290874770_2_alg».proof.Proof.GateAlgebra

set_option maxRecDepth 16384

noncomputable section

open Idealize.ShloMosaic Idealize.ShloMosaic.TcCoe Idealize.SL.Sem Idealize.ShloMosaic.ValueIdx RealArrays

namespace Cert.KernelIdeal.KV

open Cert.KernelIdeal Cert.KernelIdeal.Gen Cert.KernelIdeal.Arr Cert.KernelIdeal.Prefix Cert.KernelIdeal.Point

/-- The coefficient array: the gate weights contracted with the gate table over the sixteen gates. -/
abbrev coefArr (x3 : FVec Ideal S16x1024 .f32) : FVec Ideal S1024x4 .f32 :=
  Host.dotGeneral (F := Ideal) dot_S16x1024_S16x4_S1024x4_0_0_1_1_n_n none (gatesSoftmax x3) table

/-- The kernel's result array, from the four arguments. -/
abbrev result (X : FVec Ideal S1024x16384 .f32) (x1 x2 : FVec Ideal S1024x1024 .f32) (x3 : FVec Ideal S16x1024 .f32) :
    FVec Ideal S1024x16384 .f32 :=
  outArr X (rowsSoftmax x1) (rowsSoftmax x2) (coefArr x3)

/-- Every word of the gate table is the integer coefficient of its gate. -/
theorem table_apply (k : Fin 16) (J : Fin 4) : table (ix2 k J) = ((GateAlgebra.coef k J : ℝ) : EReal) := by
  fin_cases k <;> fin_cases J <;>
    first
      | exact GateAlgebra.word_zero
      | exact GateAlgebra.word_one
      | exact GateAlgebra.word_neg_one
      | exact GateAlgebra.word_two
      | exact GateAlgebra.word_neg_two

/-- The result at entry (r, n). -/
theorem result_apply (X : FVec Ideal S1024x16384 .f32) (x1 x2 : FVec Ideal S1024x1024 .f32)
    (x3 : FVec Ideal S16x1024 .f32) (r : Fin 1024) (n : Fin 16384) :
    result X x1 x2 x3 (ix2 r n)
      = combine (∑ k : Fin 16, gatesSoftmax x3 (ix2 k r) * table (ix2 k (0 : Fin 4)))
          (∑ k : Fin 16, gatesSoftmax x3 (ix2 k r) * table (ix2 k (1 : Fin 4)))
          (∑ k : Fin 16, gatesSoftmax x3 (ix2 k r) * table (ix2 k (2 : Fin 4)))
          (∑ k : Fin 16, gatesSoftmax x3 (ix2 k r) * table (ix2 k (3 : Fin 4)))
          (∑ k : Fin 1024, rowsSoftmax x1 (ix2 r k) * X (ix2 k n))
          (∑ k : Fin 1024, rowsSoftmax x2 (ix2 r k) * X (ix2 k n)) := by
  show outAt X (rowsSoftmax x1) (rowsSoftmax x2) (coefArr x3) r n = _
  unfold outAt coefArr
  rw [CoefDot.coef_apply, CoefDot.coef_apply, CoefDot.coef_apply, CoefDot.coef_apply]

/-- The row softmax of a real array is real. -/
theorem rowsSoftmax_real (x : FVec Ideal S1024x1024 .f32) (hx : AllReal x) : AllReal (rowsSoftmax x) :=
  SoftmaxReal.allReal_chain x hx _ (by decide) (by decide) _ _ _ _

/-- The softmax of real gate logits over the gates is real. -/
theorem gatesSoftmax_real (x : FVec Ideal S16x1024 .f32) (hx : AllReal x) : AllReal (gatesSoftmax x) :=
  SoftmaxReal.allReal_chain x hx _ (by decide) (by decide) _ _ _ _

variable (m : (ℓ : Loc nD τ sig) → Buf (Elt Ideal) ℓ) (ρ : Dev nD → PrngReg)

/-- The run: the result array at result of the arguments' launch contents, the arguments unchanged. -/
theorem run : θ_run defs (onTc (τ := τ) (main (F := Ideal))) ⟨m, fun _ => 0, ρ⟩ fun r => ∀ c : Dev nD,
      r.2.mem ((c : Thread nD τ).loc main_v36)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (by
      rw [V_main_arg0 m c, w1_eq m c, w2_eq m c, coef_eq m c]), (h c).2⟩) (Arr.run m ρ)

end Cert.KernelIdeal.KV

end
-- ==== Proof.RefRun.lean ====
/-
  The reference's run, with its result named as the last stage of the operation-by-operation reading: every weakly
  fair execution of the reference terminates with its result array at val_main_v82 of the arguments' launch contents,
  the arguments unchanged: the composed term of the 103 host operations unfolds, operation by operation, to the stages.
-/
import proofs.«125773_j41910290874770_2_alg».proof.Proof.RefRunP
import proofs.«125773_j41910290874770_2_alg».proof.Proof.RefReadP

noncomputable section

open Idealize.ShloMosaic Idealize.ShloMosaic.TcCoe Idealize.SL.Sem

namespace Cert.ReferenceIdeal.RefRun

open Cert.ReferenceIdeal Cert.ReferenceIdeal.Gen

variable {F : FTy → Type} [FloatOps F]

set_option maxRecDepth 65536 in
/-- The run's composed term is the last stage of the reading. -/
theorem res_eq (m : (ℓ : Loc nD τ sig) → Buf (Elt F) ℓ) (c : Dev nD) :
    Cert.ReferenceIdeal.ValueP.res_main_v82 m c
      = Cert.ReferenceIdeal.ReadP.val_main_v82 (F := F) (m ((c.tc : Thread nD τ).loc main_arg0))
          (m ((c.tc : Thread nD τ).loc main_arg1)) (m ((c.tc : Thread nD τ).loc main_arg2))
          (m ((c.tc : Thread nD τ).loc main_arg3)) := by
  unfold Cert.ReferenceIdeal.ValueP.res_main_v82; rfl

/-- The reference's run over the stages. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
        = Cert.ReferenceIdeal.ReadP.val_main_v82 (F := F) (m ((c.tc : Thread nD τ).loc main_arg0))
            (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_eq m c), (h c).2⟩) (Cert.ReferenceIdeal.ValueP.run m ρ)

end Cert.ReferenceIdeal.RefRun

end
-- ==== Proof.RefEntry.lean ====
/-
  The reference at an entry. With a = (pA · X)(r, n) and b = (pB · X)(r, n) the two products, the reference stacks
  the sixteen gate values of (a, b) along a new leading axis, multiplies gate k by the gate weight pT(k, r), and sums
  over k from zero:  result(r, n) = 0 + ∑ₖ gate k (a, b) · pT(k, r).
  The stack is a concatenation of sixteen pieces of leading extent one, so entry (k, r, n) of it is piece k at
  (0, r, n); each piece is a broadcast of a [1024, 16384] array built from a, b and the constants by the
  reference's own additions, subtractions and products.
-/
import proofs.«125773_j41910290874770_2_alg».proof.Proof.RefReadP
import proofs.«125773_j41910290874770_2_alg».proof.Proof.GateAlgebra
import Idealize.ShloMosaic.Lib.Pipeline.Value
import Idealize.ShloMosaic.Lib.ValueIdx

noncomputable section

open Idealize.ShloMosaic Idealize.ShloMosaic.ValueIdx

namespace Cert.ReferenceIdeal.Entry

open Cert.ReferenceIdeal Cert.ReferenceIdeal.Gen Cert.ReferenceIdeal.ReadP GateAlgebra

variable (X : FVec Ideal S1024x16384 .f32) (x1 x2 : FVec Ideal S1024x1024 .f32) (x3 : FVec Ideal S16x1024 .f32)

/-- The words of the reference's three constants. -/
abbrev Z : EReal := Ideal.ofBits .f32 0x00000000#32
abbrev One : EReal := Ideal.ofBits .f32 0x3F800000#32
abbrev Two : EReal := Ideal.ofBits .f32 0x40000000#32

/-- Entry (r, n) of the first product, softmax-rows(x1) · X. -/
def prodA (r : Fin 1024) (n : Fin 16384) : EReal := val_main_v33 (F := Ideal) X x1 (ix2 r n)

/-- Entry (r, n) of the second product, softmax-rows(x2) · X. -/
def prodB (r : Fin 1024) (n : Fin 16384) : EReal := val_main_v34 (F := Ideal) X x2 (ix2 r n)

/-- The first product as a sum over the contracted axis. -/
theorem prodA_eq (r : Fin 1024) (n : Fin 16384) :
    prodA X x1 r n = ∑ k : Fin 1024, val_main_v10 (F := Ideal) x1 (ix2 r k) * X (ix2 k n) := by
  unfold prodA
  rw [val_main_v33_apply]
  refine Finset.sum_congr rfl fun k _ => ?_
  have hl : lidx_main_v33 (ix2 r n) k = ix2 r k :=
    funext fun a => Fin.ext (by match a with | ⟨0, _⟩ => rfl | ⟨1, _⟩ => rfl)
  have hr : ridx_main_v33 (ix2 r n) k = ix2 k n :=
    funext fun a => Fin.ext (by match a with | ⟨0, _⟩ => rfl | ⟨1, _⟩ => rfl)
  rw [hl, hr]

/-- The second product as a sum over the contracted axis. -/
theorem prodB_eq (r : Fin 1024) (n : Fin 16384) :
    prodB X x2 r n = ∑ k : Fin 1024, val_main_v21 (F := Ideal) x2 (ix2 r k) * X (ix2 k n) := by
  unfold prodB
  rw [val_main_v34_apply]
  refine Finset.sum_congr rfl fun k _ => ?_
  have hl : lidx_main_v34 (ix2 r n) k = ix2 r k :=
    funext fun a => Fin.ext (by match a with | ⟨0, _⟩ => rfl | ⟨1, _⟩ => rfl)
  have hr : ridx_main_v34 (ix2 r n) k = ix2 k n :=
    funext fun a => Fin.ext (by match a with | ⟨0, _⟩ => rfl | ⟨1, _⟩ => rfl)
  rw [hl, hr]

/-! ## The sixteen pieces at (0, r, n) -/

theorem piece0 (r : Fin 1024) (n : Fin 16384) :
    val_main_v62 (F := Ideal) (ix3 (0 : Fin 1) r n) = gateE Z One Two (prodA X x1 r n) (prodB X x2 r n) (0 : Fin 16) := by
  have hI : idx_main_v62 (ix3 (0 : Fin 1) r n) = ix2 r n :=
    funext fun a => Fin.ext (by match a with | ⟨0, _⟩ => rfl | ⟨1, _⟩ => rfl)
  rw [val_main_v62_apply, hI]
  rfl

theorem piece1 (r : Fin 1024) (n : Fin 16384) :
    val_main_v63 (F := Ideal) X x1 x2 (ix3 (0 : Fin 1) r n) = gateE Z One Two (prodA X x1 r n) (prodB X x2 r n) (1 : Fin 16) := by
  have hI : idx_main_v63 (ix3 (0 : Fin 1) r n) = ix2 r n :=
    funext fun a => Fin.ext (by match a with | ⟨0, _⟩ => rfl | ⟨1, _⟩ => rfl)
  rw [val_main_v63_apply, hI]
  rfl

theorem piece2 (r : Fin 1024) (n : Fin 16384) :
    val_main_v64 (F := Ideal) X x1 x2 (ix3 (0 : Fin 1) r n) = gateE Z One Two (prodA X x1 r n) (prodB X x2 r n) (2 : Fin 16) := by
  have hI : idx_main_v64 (ix3 (0 : Fin 1) r n) = ix2 r n :=
    funext fun a => Fin.ext (by match a with | ⟨0, _⟩ => rfl | ⟨1, _⟩ => rfl)
  rw [val_main_v64_apply, hI]
  rfl

theorem piece3 (r : Fin 1024) (n : Fin 16384) :
    val_main_v65 (F := Ideal) X x1 (ix3 (0 : Fin 1) r n) = gateE Z One Two (prodA X x1 r n) (prodB X x2 r n) (3 : Fin 16) := by
  have hI : idx_main_v65 (ix3 (0 : Fin 1) r n) = ix2 r n :=
    funext fun a => Fin.ext (by match a with | ⟨0, _⟩ => rfl | ⟨1, _⟩ => rfl)
  rw [val_main_v65_apply, hI]
  rfl

theorem piece4 (r : Fin 1024) (n : Fin 16384) :
    val_main_v66 (F := Ideal) X x1 x2 (ix3 (0 : Fin 1) r n) = gateE Z One Two (prodA X x1 r n) (prodB X x2 r n) (4 : Fin 16) := by
  have hI : idx_main_v66 (ix3 (0 : Fin 1) r n) = ix2 r n :=
    funext fun a => Fin.ext (by match a with | ⟨0, _⟩ => rfl | ⟨1, _⟩ => rfl)
  rw [val_main_v66_apply, hI]
  rfl

theorem piece5 (r : Fin 1024) (n : Fin 16384) :
    val_main_v67 (F := Ideal) X x2 (ix3 (0 : Fin 1) r n) = gateE Z One Two (prodA X x1 r n) (prodB X x2 r n) (5 : Fin 16) := by
  have hI : idx_main_v67 (ix3 (0 : Fin 1) r n) = ix2 r n :=
    funext fun a => Fin.ext (by match a with | ⟨0, _⟩ => rfl | ⟨1, _⟩ => rfl)
  rw [val_main_v67_apply, hI]
  rfl

theorem piece6 (r : Fin 1024) (n : Fin 16384) :
    val_main_v68 (F := Ideal) X x1 x2 (ix3 (0 : Fin 1) r n) = gateE Z One Two (prodA X x1 r n) (prodB X x2 r n) (6 : Fin 16) := by
  have hI : idx_main_v68 (ix3 (0 : Fin 1) r n) = ix2 r n :=
    funext fun a => Fin.ext (by match a with | ⟨0, _⟩ => rfl | ⟨1, _⟩ => rfl)
  rw [val_main_v68_apply, hI]
  rfl

theorem piece7 (r : Fin 1024) (n : Fin 16384) :
    val_main_v69 (F := Ideal) X x1 x2 (ix3 (0 : Fin 1) r n) = gateE Z One Two (prodA X x1 r n) (prodB X x2 r n) (7 : Fin 16) := by
  have hI : idx_main_v69 (ix3 (0 : Fin 1) r n) = ix2 r n :=
    funext fun a => Fin.ext (by match a with | ⟨0, _⟩ => rfl | ⟨1, _⟩ => rfl)
  rw [val_main_v69_apply, hI]
  rfl

theorem piece8 (r : Fin 1024) (n : Fin 16384) :
    val_main_v70 (F := Ideal) X x1 x2 (ix3 (0 : Fin 1) r n) = gateE Z One Two (prodA X x1 r n) (prodB X x2 r n) (8 : Fin 16) := by
  have hI : idx_main_v70 (ix3 (0 : Fin 1) r n) = ix2 r n :=
    funext fun a => Fin.ext (by match a with | ⟨0, _⟩ => rfl | ⟨1, _⟩ => rfl)
  rw [val_main_v70_apply, hI]
  rfl

theorem piece9 (r : Fin 1024) (n : Fin 16384) :
    val_main_v71 (F := Ideal) X x1 x2 (ix3 (0 : Fin 1) r n) = gateE Z One Two (prodA X x1 r n) (prodB X x2 r n) (9 : Fin 16) := by
  have hI : idx_main_v71 (ix3 (0 : Fin 1) r n) = ix2 r n :=
    funext fun a => Fin.ext (by match a with | ⟨0, _⟩ => rfl | ⟨1, _⟩ => rfl)
  rw [val_main_v71_apply, hI]
  rfl

theorem piece10 (r : Fin 1024) (n : Fin 16384) :
    val_main_v72 (F := Ideal) X x2 (ix3 (0 : Fin 1) r n) = gateE Z One Two (prodA X x1 r n) (prodB X x2 r n) (10 : Fin 16) := by
  have hI : idx_main_v72 (ix3 (0 : Fin 1) r n) = ix2 r n :=
    funext fun a => Fin.ext (by match a with | ⟨0, _⟩ => rfl | ⟨1, _⟩ => rfl)
  rw [val_main_v72_apply, hI]
  rfl

theorem piece11 (r : Fin 1024) (n : Fin 16384) :
    val_main_v73 (F := Ideal) X x1 x2 (ix3 (0 : Fin 1) r n) = gateE Z One Two (prodA X x1 r n) (prodB X x2 r n) (11 : Fin 16) := by
  have hI : idx_main_v73 (ix3 (0 : Fin 1) r n) = ix2 r n :=
    funext fun a => Fin.ext (by match a with | ⟨0, _⟩ => rfl | ⟨1, _⟩ => rfl)
  rw [val_main_v73_apply, hI]
  rfl

theorem piece12 (r : Fin 1024) (n : Fin 16384) :
    val_main_v74 (F := Ideal) X x1 (ix3 (0 : Fin 1) r n) = gateE Z One Two (prodA X x1 r n) (prodB X x2 r n) (12 : Fin 16) := by
  have hI : idx_main_v74 (ix3 (0 : Fin 1) r n) = ix2 r n :=
    funext fun a => Fin.ext (by match a with | ⟨0, _⟩ => rfl | ⟨1, _⟩ => rfl)
  rw [val_main_v74_apply, hI]
  rfl

theorem piece13 (r : Fin 1024) (n : Fin 16384) :
    val_main_v75 (F := Ideal) X x1 x2 (ix3 (0 : Fin 1) r n) = gateE Z One Two (prodA X x1 r n) (prodB X x2 r n) (13 : Fin 16) := by
  have hI : idx_main_v75 (ix3 (0 : Fin 1) r n) = ix2 r n :=
    funext fun a => Fin.ext (by match a with | ⟨0, _⟩ => rfl | ⟨1, _⟩ => rfl)
  rw [val_main_v75_apply, hI]
  rfl

theorem piece14 (r : Fin 1024) (n : Fin 16384) :
    val_main_v76 (F := Ideal) X x1 x2 (ix3 (0 : Fin 1) r n) = gateE Z One Two (prodA X x1 r n) (prodB X x2 r n) (14 : Fin 16) := by
  have hI : idx_main_v76 (ix3 (0 : Fin 1) r n) = ix2 r n :=
    funext fun a => Fin.ext (by match a with | ⟨0, _⟩ => rfl | ⟨1, _⟩ => rfl)
  rw [val_main_v76_apply, hI]
  rfl

theorem piece15 (r : Fin 1024) (n : Fin 16384) :
    val_main_v77 (F := Ideal) (ix3 (0 : Fin 1) r n) = gateE Z One Two (prodA X x1 r n) (prodB X x2 r n) (15 : Fin 16) := by
  have hI : idx_main_v77 (ix3 (0 : Fin 1) r n) = ix2 r n :=
    funext fun a => Fin.ext (by match a with | ⟨0, _⟩ => rfl | ⟨1, _⟩ => rfl)
  rw [val_main_v77_apply, hI]
  rfl

/-- The sixteen pieces, in the order they are stacked. -/
def pieces : Fin 16 → (S1x1024x16384.Idx → EReal) :=
  ![val_main_v62 (F := Ideal),
    val_main_v63 (F := Ideal) X x1 x2,
    val_main_v64 (F := Ideal) X x1 x2,
    val_main_v65 (F := Ideal) X x1,
    val_main_v66 (F := Ideal) X x1 x2,
    val_main_v67 (F := Ideal) X x2,
    val_main_v68 (F := Ideal) X x1 x2,
    val_main_v69 (F := Ideal) X x1 x2,
    val_main_v70 (F := Ideal) X x1 x2,
    val_main_v71 (F := Ideal) X x1 x2,
    val_main_v72 (F := Ideal) X x2,
    val_main_v73 (F := Ideal) X x1 x2,
    val_main_v74 (F := Ideal) X x1,
    val_main_v75 (F := Ideal) X x1 x2,
    val_main_v76 (F := Ideal) X x1 x2,
    val_main_v77 (F := Ideal)]

/-- Piece k at (0, r, n) is gate k of the two products. -/
theorem pieces_gate (r : Fin 1024) (n : Fin 16384) (k : Fin 16) :
    pieces X x1 x2 k (ix3 (0 : Fin 1) r n) = gateE Z One Two (prodA X x1 r n) (prodB X x2 r n) k :=
  match k with
  | ⟨0, _⟩ => piece0 X x1 x2 r n
  | ⟨1, _⟩ => piece1 X x1 x2 r n
  | ⟨2, _⟩ => piece2 X x1 x2 r n
  | ⟨3, _⟩ => piece3 X x1 x2 r n
  | ⟨4, _⟩ => piece4 X x1 x2 r n
  | ⟨5, _⟩ => piece5 X x1 x2 r n
  | ⟨6, _⟩ => piece6 X x1 x2 r n
  | ⟨7, _⟩ => piece7 X x1 x2 r n
  | ⟨8, _⟩ => piece8 X x1 x2 r n
  | ⟨9, _⟩ => piece9 X x1 x2 r n
  | ⟨10, _⟩ => piece10 X x1 x2 r n
  | ⟨11, _⟩ => piece11 X x1 x2 r n
  | ⟨12, _⟩ => piece12 X x1 x2 r n
  | ⟨13, _⟩ => piece13 X x1 x2 r n
  | ⟨14, _⟩ => piece14 X x1 x2 r n
  | ⟨15, _⟩ => piece15 X x1 x2 r n
  | ⟨j + 16, h⟩ => absurd h (by omega)

/-- Entry (k, r, n) of the stack is piece k at (0, r, n). -/
theorem stack_apply (r : Fin 1024) (n : Fin 16384) (k : Fin 16) :
    val_main_v78 (F := Ideal) X x1 x2 (ix3 k r n) = pieces X x1 x2 k (ix3 (0 : Fin 1) r n) := by
  unfold val_main_v78
  exact concatenate_ofFn_unit_apply (t := S16x1024x16384) (s₁ := S1x1024x16384) 0 (pieces X x1 x2) _ rfl rfl
    (ix3 k r n) k rfl (ix3 (0 : Fin 1) r n) (fun b hb => by
      match b with
      | ⟨0, _⟩ => exact absurd rfl hb
      | ⟨1, _⟩ => rfl
      | ⟨2, _⟩ => rfl)

/-- The reference's result at (r, n). -/
theorem result_apply (r : Fin 1024) (n : Fin 16384) :
    val_main_v82 (F := Ideal) X x1 x2 x3 (ix2 r n)
      = Z + ∑ k : Fin 16, gateE Z One Two (prodA X x1 r n) (prodB X x2 r n) k * val_main_v32 (F := Ideal) x3 (ix2 k r) := by
  rw [val_main_v82_apply]
  refine congrArg (Z + ·) (Finset.sum_congr rfl fun k _ => ?_)
  have hI : idx_main_v82 (ix2 r n) k = ix3 k r n :=
    funext fun a => Fin.ext (by match a with | ⟨0, _⟩ => rfl | ⟨1, _⟩ => rfl | ⟨2, _⟩ => rfl)
  have hJ : idx_main_v79 (idx_main_v80 (ix3 k r n)) = ix2 k r :=
    funext fun a => Fin.ext (by match a with | ⟨0, _⟩ => rfl | ⟨1, _⟩ => rfl)
  rw [hI, val_main_v81_apply, stack_apply, pieces_gate, val_main_v80_apply, val_main_v79_apply, hJ]
  rfl

end Cert.ReferenceIdeal.Entry

end
-- ==== Proof.Bridge.lean ====
/-
  For real arguments the reference and the kernel compute one array.

  Both programs take the same three softmaxes pA, pB, pT (the same host operations, so the same terms). At entry
  (r, n), with a = ∑ₖ pA(r,k)·X(k,n) and b = ∑ₖ pB(r,k)·X(k,n), the reference has 0 + ∑ₖ gate k (a, b)·pT(k, r) and
  the kernel c0 + a·(c1 + c3·b) + c2·b with cJ = ∑ₖ pT(k, r)·table(k, J). All of a, b, pT(k, r) are real numbers
  for real arguments (a softmax of reals is real; a finite sum of products of reals is real), and then the two are
  equal by the gate identity of GateAlgebra, which uses the distributive law.
-/
import proofs.«125773_j41910290874770_2_alg».proof.Proof.KernelValue
import proofs.«125773_j41910290874770_2_alg».proof.Proof.RefEntry
import proofs.«125773_j41910290874770_2_alg».proof.Proof.LibRealArrays

set_option maxRecDepth 16384

noncomputable section

open Idealize.ShloMosaic Idealize.ShloMosaic.ValueIdx RealArrays

namespace Cert.Bridge

open Cert.ReferenceIdeal.ReadP Cert.ReferenceIdeal.Entry Cert.KernelIdeal.Prefix Cert.KernelIdeal.KV

/-- The reference's result is the kernel's result, for real arguments. -/
theorem result_eq (X : FVec Ideal Cert.KernelIdeal.S1024x16384 .f32) (x1 x2 : FVec Ideal Cert.KernelIdeal.S1024x1024 .f32)
    (x3 : FVec Ideal Cert.KernelIdeal.S16x1024 .f32) (hX : AllReal X) (h1 : AllReal x1) (h2 : AllReal x2)
    (h3 : AllReal x3) :
    val_main_v82 (F := Ideal) X x1 x2 x3 = result X x1 x2 x3 := by
  have e1 : rowsSoftmax x1 = val_main_v10 (F := Ideal) x1 := rfl
  have e2 : rowsSoftmax x2 = val_main_v21 (F := Ideal) x2 := rfl
  have e3 : gatesSoftmax x3 = val_main_v32 (F := Ideal) x3 := rfl
  have r1 : AllReal (val_main_v10 (F := Ideal) x1) := e1 ▸ rowsSoftmax_real x1 h1
  have r2 : AllReal (val_main_v21 (F := Ideal) x2) := e2 ▸ rowsSoftmax_real x2 h2
  have r3 : AllReal (val_main_v32 (F := Ideal) x3) := e3 ▸ gatesSoftmax_real x3 h3
  funext i
  obtain ⟨r, n, rfl⟩ : ∃ (r : Fin 1024) (n : Fin 16384), i = ix2 r n := ⟨i 0, i 1, eq_ix2 i⟩
  have hA : IsReal (prodA X x1 r n) := by
    rw [prodA_eq]; exact IsReal.sum _ _ fun k _ => (r1 _).mul (hX _)
  have hB : IsReal (prodB X x2 r n) := by
    rw [prodB_eq]; exact IsReal.sum _ _ fun k _ => (r2 _).mul (hX _)
  rw [Cert.ReferenceIdeal.Entry.result_apply, Cert.KernelIdeal.KV.result_apply, e1, e2, e3, ← prodA_eq, ← prodB_eq]
  unfold Cert.KernelIdeal.Point.combine
  rw [show Cert.ReferenceIdeal.Entry.Z = ((0 : ℝ) : EReal) from GateAlgebra.word_zero,
    show Cert.ReferenceIdeal.Entry.One = ((1 : ℝ) : EReal) from GateAlgebra.word_one,
    show Cert.ReferenceIdeal.Entry.Two = ((2 : ℝ) : EReal) from GateAlgebra.word_two]
  exact GateAlgebra.mix _ _ _ hA hB (fun k => r3 _) (fun k J => table (ix2 k J)) table_apply

end Cert.Bridge

end
-- ==== Proof.LibFiniteEntries.lean ====
/-
  Entries of finite magnitude are real numbers. An extended real x whose magnitude max x (−x) is strictly below +∞
  is neither +∞ nor −∞, so it is a real number. A precondition that says this of every entry of an array — the
  conjunction, over all entries, of the comparison |x| < +∞ — therefore makes every entry of the array real.
-/
import Idealize.ShloMosaic.PureOps.Ideal.Laws
import Idealize.ShloMosaic.Lib.ValueIdx
import Idealize.ShloMosaic.Lib.ReduceAll

namespace Idealize.ShloMosaic.FiniteEntries

open Idealize.ShloMosaic

/-- The word 0x7F800000 is +∞. -/
theorem ofBits_inf_f32 : Ideal.ofBits .f32 0x7F800000#32 = (⊤ : EReal) := by
  simp [Ideal.ofBits, Ideal.ieee]

/-- An extended real whose magnitude is strictly below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The comparison bit of |x| < +∞ being one makes x real. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf_f32] at h
  refine real_of_abs_lt_top x ?_
  have h' : Ideal.cmp .olt (max x (-x)) ⊤ = 1#1 := h
  unfold Ideal.cmp at h'
  by_contra hlt
  simp [hlt] at h'

end Idealize.ShloMosaic.FiniteEntries
-- ==== Proof.FiniteArgs.lean ====
/-
  The precondition makes every argument entry a real number. The predicate is the conjunction, over the four
  argument arrays, of "every entry has magnitude strictly below +∞"; each conjunct is a reduction by "and" over
  all entries of the comparison bits, so its being one makes every comparison bit one, and an extended real whose
  magnitude is strictly below +∞ is a real number.
-/
import proofs.«125773_j41910290874770_2_alg».proof.Pre_finite_inputs
import proofs.«125773_j41910290874770_2_alg».proof.Proof.LibFiniteEntries
import proofs.«125773_j41910290874770_2_alg».proof.Proof.LibRealArrays
import Idealize.ShloMosaic.Lib.ReduceAll

noncomputable section

namespace Cert.FiniteArgs

open Idealize.ShloMosaic RealArrays Cert.Pre_finite_inputs

variable [Cert.Pre_finite_inputs.Facts]

instance : Subsingleton S_.Idx := ⟨fun a b => funext fun d => d.elim0⟩

/-- Under the precondition all four argument arrays hold real numbers. -/
theorem allReal_of_pre (x0 : FVec Ideal S1024x16384 .f32) (x1 x2 : FVec Ideal S1024x1024 .f32)
    (x3 : FVec Ideal S16x1024 .f32) (h : fn (F := Ideal) x0 x1 x2 x3 = fun _ => 1#1) :
    AllReal x0 ∧ AllReal x1 ∧ AllReal x2 ∧ AllReal x3 := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact FiniteEntries.real_of_cmp _ (Host.reduce_andi_all _ _ _ _ _ h0' i)
  · exact FiniteEntries.real_of_cmp _ (Host.reduce_andi_all _ _ _ _ _ h1 i)
  · exact FiniteEntries.real_of_cmp _ (Host.reduce_andi_all _ _ _ _ _ h2 i)
  · exact FiniteEntries.real_of_cmp _ (Host.reduce_andi_all _ _ _ _ _ h3 i)

end Cert.FiniteArgs

end
-- ==== Proof.lean ====
/-
  The proof of Cert.Claim: a soft logic-gate layer as a Pallas kernel against its jnp reference.

  Both programs form pA = softmax of input_A_weights along rows, pB likewise, and pT = softmax of table_weights along
  the sixteen gates, then a = pA · X and b = pB · X (X = prev_layer_output). The reference builds the sixteen gate
  arrays of (a, b), weighs gate k by pT(k, row) and sums over k. The kernel uses that every gate is an affine
  combination of 1, a, b, a·b: with C(row, J) = ∑ₖ pT(k, row) · coefficient J of gate k (a host product with a constant
  16 × 4 table) it stores C₀ + a · (C₁ + C₃ · b) + C₂ · b, tile by tile, keeping a narrowed copy of the current column
  tile of X in a scratch buffer across the four row tiles.

  frame_Kernel, frame_KernelIdeal: the generated frame certificates. frame_ReferenceIdeal: the reference's run with the
  result dropped. preserves: the idealization rewrote nothing. algebraic: the kernel's run ends with its result array
  at KV.result of the arguments (Proof/KernelPieces, KernelPoint, KernelArray, HostPrefix, KernelValue); the reference's
  at the last stage of its reading (Proof/RefRun, RefEntry); under the precondition every argument entry is a real
  number (Proof/FiniteArgs), for which the two are one array (Proof/Bridge, by the gate identity of Proof/GateAlgebra:
  the distributive law, which is where finiteness is used).
-/
import proofs.«125773_j41910290874770_2_alg».proof.Defs
import proofs.«125773_j41910290874770_2_alg».proof.Proof.Gen.Kernel
import proofs.«125773_j41910290874770_2_alg».proof.Proof.Gen.Kernel.Frame
import proofs.«125773_j41910290874770_2_alg».proof.Proof.Gen.KernelIdeal
import proofs.«125773_j41910290874770_2_alg».proof.Proof.Gen.KernelIdeal.Frame
import proofs.«125773_j41910290874770_2_alg».proof.Proof.Gen.ReferenceIdeal
import proofs.«125773_j41910290874770_2_alg».proof.Proof.Gen.Pre_finite_inputs
import proofs.«125773_j41910290874770_2_alg».proof.Proof.KernelValue
import proofs.«125773_j41910290874770_2_alg».proof.Proof.RefRun
import proofs.«125773_j41910290874770_2_alg».proof.Proof.Bridge
import proofs.«125773_j41910290874770_2_alg».proof.Proof.FiniteArgs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories that agree on the arguments both runs end, the kernel's result array at KV.result of its arguments
    and the reference's at the last stage of its reading of the same arguments; the precondition makes every argument
    entry real, and then the two are equal. -/
theorem algebraic : Cert.algebraic_KernelIdeal_ReferenceIdeal := by
  intro m ρ m' ρ' hpre hagree
  refine ⟨fun c => Cert.KernelIdeal.KV.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KV.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  obtain ⟨hX, h1, h2, h3⟩ := Cert.FiniteArgs.allReal_of_pre _ _ _ _ (hpre c)
  exact Cert.Bridge.result_eq _ _ _ _ hX h1 h2 h3

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
